-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S1x10000x128 : Shape := ⟨3, ![1, 10000, 128]⟩
abbrev S320000 : Shape := ⟨1, ![320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S384x512 : Shape := ⟨2, ![384, 512]⟩
abbrev S128x512 : Shape := ⟨2, ![128, 512]⟩
abbrev S512 : Shape := ⟨1, ![512]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S1x10000x128 : S_.BroadcastsInDim S1x10000x128 (![] : Fin 0 → Fin S1x10000x128.rank)
  reducesTo_S1x10000x128_S_d0_1_2 : S1x10000x128.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S384x512 : S_.BroadcastsInDim S384x512 (![] : Fin 0 → Fin S384x512.rank)
  reducesTo_S384x512_S_d0_1 : S384x512.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S128x64 .f32) (main_arg17 : FVec F S64 .f32) (main_v63 : IVec S_ 1) (main_v67 : IVec S_ 1) : IVec S_ 1 :=
  let main_v68 : IVec S_ 1 := andi main_v63 main_v67
  let main_v69 : FVec F S128x64 .f32 := Host.absf main_arg16
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg13 : FVec F S512 .f32) (main_arg14 : FVec F S128x128 .f32) (main_arg15 : FVec F S128 .f32) (main_arg16 : FVec F S128x64 .f32) (main_arg17 : FVec F S64 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg13
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S384x512 .f32) (main_arg11 : FVec F S128x512 .f32) (main_arg12 : FVec F S512 .f32) (main_arg13 : FVec F S512 .f32) (main_arg14 : FVec F S128x128 .f32) (main_arg15 : FVec F S128 .f32) (main_arg16 : FVec F S128x64 .f32) (main_arg17 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x512 .f32 := Host.absf main_arg10
  let main_cst_14 : FVec F S_ .f32 := constant S_ .f32 0x7F800000#32
  let main_v40 : FVec F S384x512 .f32 := broadcastInDim S384x512 ![] bcast_S_S384x512 main_cst_14
  let main_v41 : IVec S384x512 1 := cmpf .olt main_v39 main_v40
  let main_c_15 : IVec S_ 1 := constantI S_ 1 1#1
  let main_v42 : IVec S_ 1 := (fun x v => Host.reduce IntOp.andi x v reducesTo_S384x512_S_d0_1 h_S_) main_v41 main_c_15
  let main_v43 : IVec S_ 1 := andi main_v38 main_v42
  let main_v44 : FVec F S128x512 .f32 := Host.absf main_arg11
  let main_cst_16 : FVec F S_ .f32 := constant S_ .f32 0x7F800000#32
  let main_v45 : FVec F S128x512 .f32 := broadcastInDim S128x512 ![] bcast_S_S128x512 main_cst_16
  let main_v46 : IVec S128x512 1 := cmpf .olt main_v44 main_v45
  let main_c_17 : IVec S_ 1 := constantI S_ 1 1#1
  let main_v47 : IVec S_ 1 := (fun x v => Host.reduce IntOp.andi x v reducesTo_S128x512_S_d0_1 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_arg13 main_arg14 main_arg15 main_arg16 main_arg17 main_v48 main_v49 main_v50

def fn_part1 {F : FTy → Type} [FloatOps F] (main_arg6 : FVec F S256x256 .f32) (main_arg7 : FVec F S256 .f32) (main_arg8 : FVec F S256x128 .f32) (main_arg9 : FVec F S128 .f32) (main_arg10 : FVec F S384x512 .f32) (main_arg11 : FVec F S128x512 .f32) (main_arg12 : FVec F S512 .f32) (main_arg13 : FVec F S512 .f32) (main_arg14 : FVec F S128x128 .f32) (main_arg15 : FVec F S128 .f32) (main_arg16 : FVec F S128x64 .f32) (main_arg17 : FVec F S64 .f32) (main_v13 : IVec S_ 1) (main_v16 : IVec S1x10000x128 1) : IVec S_ 1 :=
  let main_c_5 : IVec S_ 1 := constantI S_ 1 1#1
  let main_v17 : IVec S_ 1 := (fun x v => Host.reduce IntOp.andi x v reducesTo_S1x10000x128_S_d0_1_2 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S10000x128 .f32) (main_arg1 : FVec F S10000x128 .f32) (main_arg2 : FVec F S1x10000x128 .f32) (main_arg3 : FVec F S1x10000x128 .f32) (main_arg4 : IVec S320000 32) (main_arg5 : IVec S320000 32) (main_arg6 : FVec F S256x256 .f32) (main_arg7 : FVec F S256 .f32) (main_arg8 : FVec F S256x128 .f32) (main_arg9 : FVec F S128 .f32) (main_arg10 : FVec F S384x512 .f32) (main_arg11 : FVec F S128x512 .f32) (main_arg12 : FVec F S512 .f32) (main_arg13 : FVec F S512 .f32) (main_arg14 : FVec F S128x128 .f32) (main_arg15 : FVec F S128 .f32) (main_arg16 : FVec F S128x64 .f32) (main_arg17 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S1x10000x128 .f32 := Host.absf main_arg2
  let main_cst_2 : FVec F S_ .f32 := constant S_ .f32 0x7F800000#32
  let main_v10 : FVec F S1x10000x128 .f32 := broadcastInDim S1x10000x128 ![] bcast_S_S1x10000x128 main_cst_2
  let main_v11 : IVec S1x10000x128 1 := cmpf .olt main_v9 main_v10
  let main_c_3 : IVec S_ 1 := constantI S_ 1 1#1
  let main_v12 : IVec S_ 1 := (fun x v => Host.reduce IntOp.andi x v reducesTo_S1x10000x128_S_d0_1_2 h_S_) main_v11 main_c_3
  let main_v13 : IVec S_ 1 := andi main_v8 main_v12
  let main_v14 : FVec F S1x10000x128 .f32 := Host.absf main_arg3
  let main_cst_4 : FVec F S_ .f32 := constant S_ .f32 0x7F800000#32
  let main_v15 : FVec F S1x10000x128 .f32 := broadcastInDim S1x10000x128 ![] bcast_S_S1x10000x128 main_cst_4
  let main_v16 : IVec S1x10000x128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S10000x128 : Shape := ⟨2, ![10000, 128]⟩
abbrev S1x10000x128 : Shape := ⟨3, ![1, 10000, 128]⟩
abbrev S320000 : Shape := ⟨1, ![320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S384x512 : Shape := ⟨2, ![384, 512]⟩
abbrev S128x512 : Shape := ⟨2, ![128, 512]⟩
abbrev S512 : Shape := ⟨1, ![512]⟩
abbrev S128x128 : Shape := ⟨2, ![128, 128]⟩
abbrev S128x64 : Shape := ⟨2, ![128, 64]⟩
abbrev S64 : Shape := ⟨1, ![64]⟩
abbrev S_ : Shape := ⟨0, ![]⟩
abbrev S320000x1 : Shape := ⟨2, ![320000, 1]⟩
abbrev S320000x128 : Shape := ⟨2, ![320000, 128]⟩
abbrev S128x256 : Shape := ⟨2, ![128, 256]⟩
abbrev S8000x128 : Shape := ⟨2, ![8000, 128]⟩
abbrev S8000x256 : Shape := ⟨2, ![8000, 256]⟩
abbrev S1x256 : Shape := ⟨2, ![1, 256]⟩
abbrev S1x128 : Shape := ⟨2, ![1, 128]⟩
abbrev S10000x64 : Shape := ⟨2, ![10000, 64]⟩
abbrev S1000x128 : Shape := ⟨2, ![1000, 128]⟩
abbrev S1000x64 : Shape := ⟨2, ![1000, 64]⟩
abbrev S1000x512 : Shape := ⟨2, ![1000, 512]⟩
abbrev S1x512 : Shape := ⟨2, ![1, 512]⟩
abbrev S1x64 : Shape := ⟨2, ![1, 64]⟩

abbrev nBuf : Space → Nat
  | .hbm => 54
  | .vmem => 37
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S1x10000x128, .f32⟩
  | .hbm, ⟨3, _⟩ => ⟨S1x10000x128, .f32⟩
  | .hbm, ⟨4, _⟩ => ⟨S320000, .i32⟩
  | .hbm, ⟨5, _⟩ => ⟨S320000, .i32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S384x512, .f32⟩
  | .hbm, ⟨11, _⟩ => ⟨S128x512, .f32⟩
  | .hbm, ⟨12, _⟩ => ⟨S512, .f32⟩
  | .hbm, ⟨13, _⟩ => ⟨S512, .f32⟩
  | .hbm, ⟨14, _⟩ => ⟨S128x128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S10000x128, .bf16⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x128, .bf16⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S320000x128, .bf16⟩
  | .hbm, ⟨37, _⟩ => ⟨S128x256, .f32⟩
  | .hbm, ⟨38, _⟩ => ⟨S128x256, .f32⟩
  | .hbm, ⟨39, _⟩ => ⟨S320000x128, .f32⟩
  | .hbm, ⟨40, _⟩ => ⟨S_, .f32⟩
  | .hbm, ⟨41, _⟩ => ⟨S10000x128, .f32⟩
  | .hbm, ⟨42, _⟩ => ⟨S320000x1, .i32⟩
  | .hbm, ⟨43, _⟩ => ⟨S10000x128, .f32⟩
  | .hbm, ⟨44, _⟩ => ⟨S10000x128, .f32⟩
  | .hbm, ⟨45, _⟩ => ⟨S10000x128, .f32⟩
  | .hbm, ⟨46, _⟩ => ⟨S128x512, .f32⟩
  | .hbm, ⟨47, _⟩ => ⟨S128x512, .f32⟩
  | .hbm, ⟨48, _⟩ => ⟨S128x512, .f32⟩
  | .hbm, ⟨49, _⟩ => ⟨S10000x64, .f32⟩
  | .hbm, ⟨50, _⟩ => ⟨S10000x128, .f32⟩
  | .hbm, ⟨51, _⟩ => ⟨S10000x128, .f32⟩
  | .hbm, ⟨52, _⟩ => ⟨S1x10000x128, .f32⟩
  | .hbm, ⟨53, _⟩ => ⟨S1x10000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S256x128, .f32⟩
  | .local _ .vmem, ⟨8, _⟩ => ⟨S128, .f32⟩
  | .local _ .vmem, ⟨9, _⟩ => ⟨S8000x128, .f32⟩
  | .local _ .vmem, ⟨10, _⟩ => ⟨S8000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S512, .f32⟩
  | .local _ .vmem, ⟨26, _⟩ => ⟨S512, .f32⟩
  | .local _ .vmem, ⟨27, _⟩ => ⟨S128x128, .f32⟩
  | .local _ .vmem, ⟨28, _⟩ => ⟨S128, .f32⟩
  | .local _ .vmem, ⟨29, _⟩ => ⟨S128x64, .f32⟩
  | .local _ .vmem, ⟨30, _⟩ => ⟨S64, .f32⟩
  | .local _ .vmem, ⟨31, _⟩ => ⟨S1000x64, .f32⟩
  | .local _ .vmem, ⟨32, _⟩ => ⟨S1000x64, .f32⟩
  | .local _ .vmem, ⟨33, _⟩ => ⟨S1000x128, .f32⟩
  | .local _ .vmem, ⟨34, _⟩ => ⟨S1000x128, .f32⟩
  | .local _ .vmem, ⟨35, _⟩ => ⟨S1000x128, .f32⟩
  | .local _ .vmem, ⟨36, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c_1 : Ref sig .tc := ⟨.hbm, 28, rfl⟩
abbrev main_v8 : Ref sig .tc := ⟨.hbm, 29, rfl⟩
abbrev main_v9 : Ref sig .tc := ⟨.hbm, 30, rfl⟩
abbrev main_c_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26_0 : Ref sig .tc := ⟨.hbm, 49, rfl⟩
abbrev main_v26_1 : Ref sig .tc := ⟨.hbm, 50, rfl⟩
abbrev main_v26_2 : Ref sig .tc := ⟨.hbm, 51, rfl⟩
abbrev main_v27 : Ref sig .tc := ⟨.hbm, 52, rfl⟩
abbrev main_v28 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg14_0 : Ref sig .tc := ⟨.vmem, 30, rfl⟩
abbrev cc1_stg15_0 : Ref sig .tc := ⟨.vmem, 31, rfl⟩
abbrev cc1_stg15_1 : Ref sig .tc := ⟨.vmem, 32, rfl⟩
abbrev cc1_stg16_0 : Ref sig .tc := ⟨.vmem, 33, rfl⟩
abbrev cc1_stg16_1 : Ref sig .tc := ⟨.vmem, 34, rfl⟩
abbrev cc1_stg17_0 : Ref sig .tc := ⟨.vmem, 35, rfl⟩
abbrev cc1_stg17_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem15_0 : DmaSem sig := 31
abbrev cc1_sem15_1 : DmaSem sig := 32
abbrev cc1_sem16_0 : DmaSem sig := 33
abbrev cc1_sem16_1 : DmaSem sig := 34
abbrev cc1_sem17_0 : DmaSem sig := 35
abbrev cc1_sem17_1 : DmaSem sig := 36

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S1000x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1000x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S1000x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

class Facts₀ : Prop where
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  slices_S256x256_S128x256_0_0 : S256x256.Slices ![0, 0] S128x256
  slices_S256x256_S128x256_128_0 : S256x256.Slices ![128, 0] S128x256
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S8000x256 : S1x256.Broadcasts S8000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  bcast_S_S10000x128 : S_.BroadcastsInDim S10000x128 (![] : Fin 0 → Fin S10000x128.rank)
  shapeCasts_S1x10000x128_S10000x128 : S1x10000x128.ShapeCasts S10000x128
  slices_S384x512_S128x512_0_0 : S384x512.Slices ![0, 0] S128x512
  slices_S384x512_S128x512_128_0 : S384x512.Slices ![128, 0] S128x512
  slices_S384x512_S128x512_256_0 : S384x512.Slices ![256, 0] S128x512
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  slices_S1000x512_o0_0_S1000x128 : S1000x512.Slices ![0, 0] S1000x128
  slices_S1000x512_o0_128_S1000x128 : S1000x512.Slices ![0, 128] S1000x128
  slices_S1000x512_o0_256_S1000x128 : S1000x512.Slices ![0, 256] S1000x128
  slices_S1000x512_o0_384_S1000x128 : S1000x512.Slices ![0, 384] S1000x128
  inb_S128x128_S128x128_0_0 : ∀ a, (![0, 0] : Fin 2 → Nat) a + S128x128.size a ≤ S128x128.size a
  h_S128x128 : 0 < S128x128.numel
  broadcasts_S1x128_S1000x128 : S1x128.Broadcasts S1000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  bcast_S10000x128_S1x10000x128_1_2 : S10000x128.BroadcastsInDim S1x10000x128 (![1, 2] : Fin 2 → Fin S1x10000x128.rank)
  gather_S10000x128_S320000x1_S320000x128_1_0_n_n_0_1_1128_wf : GatherDims.WF S10000x128 S320000x1 S320000x128 [1] [0] [] [0] [] 1 ![1, 128]
  dot_S8000x128_S128x256_S8000x256_1_0_0_1_n_n_wf : DotDims.WF S8000x128 S128x256 S8000x256 [1] [0] [0] [1] [] []
  dot_S8000x256_S256x128_S8000x128_1_0_0_1_n_n_wf : DotDims.WF S8000x256 S256x128 S8000x128 [1] [0] [0] [1] [] []
  scatter_S10000x128_S320000x1_S320000x128_1_0_0_1_wf : ScatterDims.WF S10000x128 S320000x1 S320000x128 [1] [0] [0] 1
  dot_S1000x128_S128x512_S1000x512_1_0_0_1_n_n_wf : DotDims.WF S1000x128 S128x512 S1000x512 [1] [0] [0] [1] [] []
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S320000x128.size a
  hwx0_0 : ∀ i : grid0.Coords, EltTy.bits .bf16 = 32 ∨ (Rect.block (s := S320000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S320000x128.size a
  hwx0_1 : ∀ i : grid0.Coords, EltTy.bits .bf16 = 32 ∨ (Rect.block (s := S320000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S320000x128.size a
  hwx0_7 : ∀ i : grid0.Coords, EltTy.bits .f32 = 32 ∨ (Rect.block (s := S320000x128) S8000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S10000x128.size a
  hwx1_2 : ∀ i : grid1.Coords, EltTy.bits .f32 = 32 ∨ (Rect.block (s := S10000x128) S1000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S10000x128.size a
  hwx1_3 : ∀ i : grid1.Coords, EltTy.bits .f32 = 32 ∨ (Rect.block (s := S10000x128) S1000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S10000x128.size a
  hwx1_4 : ∀ i : grid1.Coords, EltTy.bits .f32 = 32 ∨ (Rect.block (s := S10000x128) S1000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x512.size a ≤ S128x512.size a
  hwx1_5 : ∀ i : grid1.Coords, EltTy.bits .f32 = 32 ∨ (Rect.block (s := S128x512) S128x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x512.size a ≤ S128x512.size a
  hwx1_6 : ∀ i : grid1.Coords, EltTy.bits .f32 = 32 ∨ (Rect.block (s := S128x512) S128x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x512.size a ≤ S128x512.size a
  hwx1_7 : ∀ i : grid1.Coords, EltTy.bits .f32 = 32 ∨ (Rect.block (s := S128x512) S128x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x512.size a ≤ S128x512.size a
  hwx1_8 : ∀ i : grid1.Coords, EltTy.bits .f32 = 32 ∨ (Rect.block (s := S128x512) S128x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512.size a ≤ S512.size a
  hwx1_9 : ∀ i : grid1.Coords, EltTy.bits .f32 = 32 ∨ (Rect.block (s := S512) S512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512.size a ≤ S512.size a
  hwx1_10 : ∀ i : grid1.Coords, EltTy.bits .f32 = 32 ∨ (Rect.block (s := S512) S512.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .f32 = 32 ∨ (Rect.block (s := S128x128) S128x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128x64.size a ≤ S128x64.size a
  hwx1_13 : ∀ i : grid1.Coords, EltTy.bits .f32 = 32 ∨ (Rect.block (s := S128x64) S128x64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S64.size a ≤ S64.size a
  hwx1_14 : ∀ i : grid1.Coords, EltTy.bits .f32 = 32 ∨ (Rect.block (s := S64) S64.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1000x64.size a ≤ S10000x64.size a
  hwx1_15 : ∀ i : grid1.Coords, EltTy.bits .f32 = 32 ∨ (Rect.block (s := S10000x64) S1000x64.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S1000x128.size a ≤ S10000x128.size a
  hwx1_16 : ∀ i : grid1.Coords, EltTy.bits .f32 = 32 ∨ (Rect.block (s := S10000x128) S1000x128.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S1000x128.size a ≤ S10000x128.size a
  hwx1_17 : ∀ i : grid1.Coords, EltTy.bits .f32 = 32 ∨ (Rect.block (s := S10000x128) S1000x128.size (cc1_transform_17 i) (hinb1_17 i)).WholeWords (EltTy.packing .f32)

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S8000x128_S128x256_S8000x256_1_0_0_1_n_n : DotDims S8000x128 S128x256 S8000x256 where
  lhsContracting := [1]
  rhsContracting := [0]
  lhsNonContracting := [0]
  rhsNonContracting := [1]
  lhsBatch := []
  rhsBatch := []
  wf := dot_S8000x128_S128x256_S8000x256_1_0_0_1_n_n_wf
def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_v7) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23) S128x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S128x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S128x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S128x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg13) S512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg14) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg15) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg16) S128x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg17) S64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v26_0) S1000x64.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v26_1) S1000x128.size cc1_transform_16 reads1_16 true false 2 stage1_16 sem1_16
    hrank1 hreads1_16 hinb1_16 nbuf1_16 (Memref.isWhole_whole _) hwx1_16 hstage1_16

abbrev win1_17 : Pipeline.Window sig grid1 :=
  Pipeline.Window.ofSpec (Memref.whole main_v26_2) S1000x128.size cc1_transform_17 reads1_17 true false 2 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

class Facts : Prop extends Facts₀ where

variable [Facts]
-- ==== ReferenceIdeal.lean ====
abbrev S10000x128 : Shape := ⟨2, ![10000, 128]⟩
abbrev S1x10000x128 : Shape := ⟨3, ![1, 10000, 128]⟩
abbrev S320000 : Shape := ⟨1, ![320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S384x512 : Shape := ⟨2, ![384, 512]⟩
abbrev S128x512 : Shape := ⟨2, ![128, 512]⟩
abbrev S512 : Shape := ⟨1, ![512]⟩
abbrev S128x128 : Shape := ⟨2, ![128, 128]⟩
abbrev S128x64 : Shape := ⟨2, ![128, 64]⟩
abbrev S64 : Shape := ⟨1, ![64]⟩
abbrev S_ : Shape := ⟨0, ![]⟩
abbrev S320000x1 : Shape := ⟨2, ![320000, 1]⟩
abbrev S320000x128 : Shape := ⟨2, ![320000, 128]⟩
abbrev S320000x256 : Shape := ⟨2, ![320000, 256]⟩
abbrev S1x256 : Shape := ⟨2, ![1, 256]⟩
abbrev S1x128 : Shape := ⟨2, ![1, 128]⟩
abbrev S10000x384 : Shape := ⟨2, ![10000, 384]⟩
abbrev S10000x512 : Shape := ⟨2, ![10000, 512]⟩
abbrev S1x512 : Shape := ⟨2, ![1, 512]⟩
abbrev S10000x64 : Shape := ⟨2, ![10000, 64]⟩
abbrev S1x64 : Shape := ⟨2, ![1, 64]⟩

abbrev nBuf : Space → Nat
  | .hbm => 109
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S1x10000x128, .f32⟩
  | .hbm, ⟨3, _⟩ => ⟨S1x10000x128, .f32⟩
  | .hbm, ⟨4, _⟩ => ⟨S320000, .i32⟩
  | .hbm, ⟨5, _⟩ => ⟨S320000, .i32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S384x512, .f32⟩
  | .hbm, ⟨11, _⟩ => ⟨S128x512, .f32⟩
  | .hbm, ⟨12, _⟩ => ⟨S512, .f32⟩
  | .hbm, ⟨13, _⟩ => ⟨S512, .f32⟩
  | .hbm, ⟨14, _⟩ => ⟨S128x128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x128, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S320000x128, .f32⟩
  | .hbm, ⟨36, _⟩ => ⟨S320000x256, .f32⟩
  | .hbm, ⟨37, _⟩ => ⟨S320000x256, .f32⟩
  | .hbm, ⟨38, _⟩ => ⟨S1x256, .f32⟩
  | .hbm, ⟨39, _⟩ => ⟨S320000x256, .f32⟩
  | .hbm, ⟨40, _⟩ => ⟨S320000x256, .f32⟩
  | .hbm, ⟨41, _⟩ => ⟨S_, .f32⟩
  | .hbm, ⟨42, _⟩ => ⟨S320000x256, .f32⟩
  | .hbm, ⟨43, _⟩ => ⟨S320000x256, .f32⟩
  | .hbm, ⟨44, _⟩ => ⟨S320000x128, .f32⟩
  | .hbm, ⟨45, _⟩ => ⟨S1x128, .f32⟩
  | .hbm, ⟨46, _⟩ => ⟨S320000x128, .f32⟩
  | .hbm, ⟨47, _⟩ => ⟨S320000x128, .f32⟩
  | .hbm, ⟨48, _⟩ => ⟨S_, .f32⟩
  | .hbm, ⟨49, _⟩ => ⟨S10000x128, .f32⟩
  | .hbm, ⟨50, _⟩ => ⟨S320000x1, .i32⟩
  | .hbm, ⟨51, _⟩ => ⟨S10000x128, .f32⟩
  | .hbm, ⟨52, _⟩ => ⟨S10000x384, .f32⟩
  | .hbm, ⟨53, _⟩ => ⟨S10000x512, .f32⟩
  | .hbm, ⟨54, _⟩ => ⟨S10000x128, .f32⟩
  | .hbm, ⟨55, _⟩ => ⟨S10000x512, .f32⟩
  | .hbm, ⟨56, _⟩ => ⟨S10000x512, .f32⟩
  | .hbm, ⟨57, _⟩ => ⟨S512, .f32⟩
  | .hbm, ⟨58, _⟩ => ⟨S1x512, .f32⟩
  | .hbm, ⟨59, _⟩ => ⟨S10000x512, .f32⟩
  | .hbm, ⟨60, _⟩ => ⟨S10000x512, .f32⟩
  | .hbm, ⟨61, _⟩ => ⟨S10000x128, .f32⟩
  | .hbm, ⟨62, _⟩ => ⟨S10000x128, .f32⟩
  | .hbm, ⟨63, _⟩ => ⟨S10000x128, .f32⟩
  | .hbm, ⟨64, _⟩ => ⟨S10000x128, .f32⟩
  | .hbm, ⟨65, _⟩ => ⟨S10000x128, .f32⟩
  | .hbm, ⟨66, _⟩ => ⟨S10000x128, .f32⟩
  | .hbm, ⟨67, _⟩ => ⟨S_, .f32⟩
  | .hbm, ⟨68, _⟩ => ⟨S10000x128, .f32⟩
  | .hbm, ⟨69, _⟩ => ⟨S10000x128, .f32⟩
  | .hbm, ⟨70, _⟩ => ⟨S_, .f32⟩
  | .hbm, ⟨71, _⟩ => ⟨S10000x128, .f32⟩
  | .hbm, ⟨72, _⟩ => ⟨S10000x128, .f32⟩
  | .hbm, ⟨73, _⟩ => ⟨S10000x128, .f32⟩
  | .hbm, ⟨74, _⟩ => ⟨S10000x128, .f32⟩
  | .hbm, ⟨75, _⟩ => ⟨S10000x128, .f32⟩
  | .hbm, ⟨76, _⟩ => ⟨S10000x128, .f32⟩
  | .hbm, ⟨77, _⟩ => ⟨S_, .f32⟩
  | .hbm, ⟨78, _⟩ => ⟨S10000x128, .f32⟩
  | .hbm, ⟨79, _⟩ => ⟨S10000x128, .f32⟩
  | .hbm, ⟨80, _⟩ => ⟨S_, .f32⟩
  | .hbm, ⟨81, _⟩ => ⟨S10000x128, .f32⟩
  | .hbm, ⟨82, _⟩ => ⟨S10000x128, .f32⟩
  | .hbm, ⟨83, _⟩ => ⟨S10000x128, .f32⟩
  | .hbm, ⟨84, _⟩ => ⟨S10000x128, .f32⟩
  | .hbm, ⟨85, _⟩ => ⟨S10000x128, .f32⟩
  | .hbm, ⟨86, _⟩ => ⟨S10000x128, .f32⟩
  | .hbm, ⟨87, _⟩ => ⟨S10000x128, .f32⟩
  | .hbm, ⟨88, _⟩ => ⟨S_, .f32⟩
  | .hbm, ⟨89, _⟩ => ⟨S10000x128, .f32⟩
  | .hbm, ⟨90, _⟩ => ⟨S10000x128, .f32⟩
  | .hbm, ⟨91, _⟩ => ⟨S_, .f32⟩
  | .hbm, ⟨92, _⟩ => ⟨S10000x128, .f32⟩
  | .hbm, ⟨93, _⟩ => ⟨S10000x128, .f32⟩
  | .hbm, ⟨94, _⟩ => ⟨S10000x128, .f32⟩
  | .hbm, ⟨95, _⟩ => ⟨S10000x128, .f32⟩
  | .hbm, ⟨96, _⟩ => ⟨S10000x128, .f32⟩
  | .hbm, ⟨97, _⟩ => ⟨S1x128, .f32⟩
  | .hbm, ⟨98, _⟩ => ⟨S10000x128, .f32⟩
  | .hbm, ⟨99, _⟩ => ⟨S10000x128, .f32⟩
  | .hbm, ⟨100, _⟩ => ⟨S_, .f32⟩
  | .hbm, ⟨101, _⟩ => ⟨S10000x128, .f32⟩
  | .hbm, ⟨102, _⟩ => ⟨S10000x128, .f32⟩
  | .hbm, ⟨103, _⟩ => ⟨S10000x64, .f32⟩
  | .hbm, ⟨104, _⟩ => ⟨S1x64, .f32⟩
  | .hbm, ⟨105, _⟩ => ⟨S10000x64, .f32⟩
  | .hbm, ⟨106, _⟩ => ⟨S10000x64, .f32⟩
  | .hbm, ⟨107, _⟩ => ⟨S1x10000x128, .f32⟩
  | .hbm, ⟨108, _⟩ => ⟨S1x10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_cst : Ref sig .tc := ⟨.hbm, 41, rfl⟩
abbrev main_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_3 : Ref sig .tc := ⟨.hbm, 67, rfl⟩
abbrev main_v42 : Ref sig .tc := ⟨.hbm, 68, rfl⟩
abbrev main_v43 : Ref sig .tc := ⟨.hbm, 69, rfl⟩
abbrev main_cst_4 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_5 : Ref sig .tc := ⟨.hbm, 77, rfl⟩
abbrev main_v50 : Ref sig .tc := ⟨.hbm, 78, rfl⟩
abbrev main_v51 : Ref sig .tc := ⟨.hbm, 79, rfl⟩
abbrev main_cst_6 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call1_cst : Ref sig .tc := ⟨.hbm, 100, rfl⟩
abbrev main_call1_v0 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x256_d1 : Shape.Concatenates [S320000x128, S320000x128] S320000x256 1
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S10000x128 : S_.BroadcastsInDim S10000x128 (![] : Fin 0 → Fin S10000x128.rank)
  concatenates_S10000x128_S10000x128_S10000x128_S10000x384_d1 : Shape.Concatenates [S10000x128, S10000x128, S10000x128] S10000x384 1
  shapeCasts_S1x10000x128_S10000x128 : S1x10000x128.ShapeCasts S10000x128
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S10000x512_S10000x128_0_0 : S10000x512.Slices ![0, 0] S10000x128
  slices_S10000x512_S10000x128_0_128 : S10000x512.Slices ![0, 128] S10000x128
  slices_S10000x512_S10000x128_0_256 : S10000x512.Slices ![0, 256] S10000x128
  slices_S10000x512_S10000x128_0_384 : S10000x512.Slices ![0, 384] S10000x128
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S10000x128_S1x10000x128_1_2 : S10000x128.BroadcastsInDim S1x10000x128 (![1, 2] : Fin 2 → Fin S1x10000x128.rank)
  gather_S10000x128_S320000x1_S320000x128_1_0_n_n_0_1_1128_wf : GatherDims.WF S10000x128 S320000x1 S320000x128 [1] [0] [] [0] [] 1 ![1, 128]
  dot_S320000x256_S256x256_S320000x256_1_0_0_1_n_n_wf : DotDims.WF S320000x256 S256x256 S320000x256 [1] [0] [0] [1] [] []
  dot_S320000x256_S256x128_S320000x128_1_0_0_1_n_n_wf : DotDims.WF S320000x256 S256x128 S320000x128 [1] [0] [0] [1] [] []
  scatter_S10000x128_S320000x1_S320000x128_1_0_0_1_wf : ScatterDims.WF S10000x128 S320000x1 S320000x128 [1] [0] [0] 1
  dot_S10000x384_S384x512_S10000x512_1_0_0_1_n_n_wf : DotDims.WF S10000x384 S384x512 S10000x512 [1] [0] [0] [1] [] []
  dot_S10000x128_S128x512_S10000x512_1_0_0_1_n_n_wf : DotDims.WF S10000x128 S128x512 S10000x512 [1] [0] [0] [1] [] []
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x384_S384x512_S10000x512_1_0_0_1_n_n : DotDims S10000x384 S384x512 S10000x512 where
  lhsContracting := [1]
  rhsContracting := [0]
  lhsNonContracting := [0]
  rhsNonContracting := [1]
  lhsBatch := []
  rhsBatch := []
  wf := dot_S10000x384_S384x512_S10000x512_1_0_0_1_n_n_wf
def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.KRun.lean ====
/-
  The idealized kernel's whole run, with its three results read.

  The program is five stretches in a row: host operations, the edge kernel's grid, host operations, the node
  kernel's grid, host operations. The contents of every buffer at each of the six boundaries are a fold through the
  program from the launch memory (the generated frame module's `W0 … W5`). Every weakly fair execution terminates
  without a fault, and in its final state every buffer that outlives the kernels holds the last boundary's contents:
  so do the three result buffers, which this module reads there, beside the eighteen argument arrays, which end as
  launched.
-/
import proofs.«117058_j55439437856890_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions theorem's implicit arguments are found by unifying its conclusion with this one, which takes unfolding
-- plain definitions in a metavariable's type
set_option backward.isDefEq.respectTransparency.types false in
/-- Every weakly fair execution of the program terminates, nothing faulting; the three results end at the last
    boundary's contents and the arguments as launched. -/
theorem run_values : θ_run defs (onTc (τ := τ) (main (F := F))) ⟨m, fun _ => 0, ρ⟩ (fun r => ∀ c : Dev nD,
      r.2.mem ((c.tc : Thread nD τ).loc main_v26_0) = W5 m ρ c (Proc.devRef .tc main_v26_0)
      ∧ r.2.mem ((c.tc : Thread nD τ).loc main_v27) = W5 m ρ c (Proc.devRef .tc main_v27)
      ∧ r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v26_0 (by decide)),
       h c _ (mem_uc main_v27 (by decide)),
       h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c)⟩)

end Cert.KernelIdeal.RunValue

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibStackedProd.lean ====
/-
  GENERAL LEMMAS: matrix products over the extended reals, by rows and by stacked blocks.

  `rowsAt f X` is the array whose row `r` is row `f r` of `X`, and `rowBlock r o h W` is rows `o … o + r − 1` of `W`.
  A product's rows are the products of the left operand's rows (`matProd_rowsAt`): this is what turns a product of a
  block of rows into the block of the product of all rows. A sum over `a + b` indices is the sum over the first `a`
  plus the sum over the last `b` (`sum_split`, in any commutative monoid); so a product whose left operand is two or
  three arrays of `K` columns laid side by side is the sum of the pieces' products with the right operand's row blocks
  (`matProd_join2`, `matProd_join3`), the joined array being given by its column ranges. Nothing here needs a
  finiteness hypothesis: only commutativity and associativity of addition are used.
-/
import Idealize.ShloMosaic.PureOps.Ideal.Laws
import Idealize.ShloMosaic.Lib.ValueIdx
import proofs.«117058_j55439437856890_2_alg».proof.Proof.LibMatProd

noncomputable section

open scoped BigOperators

namespace Cert.Linear

open Idealize.ShloMosaic Idealize.ShloMosaic.ValueIdx

/-- The shape of a vector of length `a`. -/
abbrev Vc (a : Nat) : Shape := ⟨1, ![a]⟩

/-! ## Rows re-indexed -/

/-- The array whose row `r` is row `f r` of `X`. -/
def rowsAt {n N C : Nat} (f : Fin n → Fin N) (X : (Mat N C).Idx → EReal) : (Mat n C).Idx → EReal :=
  fun i => X (ix2 (f (i 0)) (i 1))

/-- Rows `o, o+1, …` of a matrix, as a matrix of `r` rows. -/
def rowBlock {R C : Nat} (r o : Nat) (h : o + r ≤ R) (W : (Mat R C).Idx → EReal) : (Mat r C).Idx → EReal :=
  fun i => W (ix2 ⟨o + (i 0).val, Nat.lt_of_lt_of_le (Nat.add_lt_add_left (idx2_lt0 i) o) h⟩ (i 1))

/-- A product's rows are the products of the left operand's rows. -/
theorem matProd_rowsAt {n N K C : Nat} (f : Fin n → Fin N) (X : (Mat N K).Idx → EReal) (W : (Mat K C).Idx → EReal) :
    matProd (rowsAt f X) W = rowsAt f (matProd X W) := rfl

/-! ## A product with stacked row blocks is the sum of the blocks' products -/

/-- A sum over `a + b` indices is the sum over the first `a` plus the sum over the last `b`. -/
theorem sum_split {M : Type} [AddCommMonoid M] (a b c : Nat) (h : a + b = c) (f : Fin c → M) :
    ∑ k : Fin c, f k = ∑ k : Fin a, f ⟨k.val, by omega⟩ + ∑ k : Fin b, f ⟨a + k.val, by omega⟩ := by
  subst h
  rw [Fin.sum_univ_add]
  rfl

/-- Two arrays of `K` columns side by side against a matrix of `T = K + K` rows: the left array against the top rows
    plus the right array against the bottom rows. The joined array is given by its two column ranges. -/
theorem matProd_join2 {R K T N : Nat} (hT : K + K = T) (A B : (Mat R K).Idx → EReal) (J : (Mat R T).Idx → EReal)
    (W : (Mat T N).Idx → EReal)
    (hA : ∀ (r : Fin R) (k : Fin K), J (ix2 r ⟨k.val, by omega⟩) = A (ix2 r k))
    (hB : ∀ (r : Fin R) (k : Fin K), J (ix2 r ⟨K + k.val, by omega⟩) = B (ix2 r k)) (p : (Mat R N).Idx) :
    matProd J W p = matProd A (rowBlock K 0 (by omega) W) p + matProd B (rowBlock K K (by omega) W) p := by
  obtain ⟨r, q, rfl⟩ : ∃ (r : Fin R) (q : Fin N), p = ix2 r q := ⟨p 0, p 1, eq_ix2 p⟩
  show ∑ k : Fin T, J (ix2 r k) * W (ix2 k q)
      = (∑ k : Fin K, A (ix2 r k) * W (ix2 ⟨0 + k.val, by omega⟩ q)) + ∑ k : Fin K, B (ix2 r k) * W (ix2 ⟨K + k.val, by omega⟩ q)
  refine (sum_split K K T hT _).trans (congrArg₂ (· + ·) (Finset.sum_congr rfl fun k _ => ?_) (Finset.sum_congr rfl fun k _ => ?_))
  · exact congrArg₂ (· * ·) (hA r k) (congrArg (fun z => W (ix2 z q)) (Fin.ext (Nat.zero_add _).symm))
  · exact congrArg (· * _) (hB r k)

/-- Three arrays of `K` columns side by side against a matrix of `T = K + K + K` rows. -/
theorem matProd_join3 {R K T N : Nat} (hT : K + K + K = T) (A B C : (Mat R K).Idx → EReal) (J : (Mat R T).Idx → EReal)
    (W : (Mat T N).Idx → EReal)
    (hA : ∀ (r : Fin R) (k : Fin K), J (ix2 r ⟨k.val, by omega⟩) = A (ix2 r k))
    (hB : ∀ (r : Fin R) (k : Fin K), J (ix2 r ⟨K + k.val, by omega⟩) = B (ix2 r k))
    (hC : ∀ (r : Fin R) (k : Fin K), J (ix2 r ⟨K + K + k.val, by omega⟩) = C (ix2 r k)) (p : (Mat R N).Idx) :
    matProd J W p = matProd A (rowBlock K 0 (by omega) W) p + matProd B (rowBlock K K (by omega) W) p
      + matProd C (rowBlock K (K + K) (by omega) W) p := by
  obtain ⟨r, q, rfl⟩ : ∃ (r : Fin R) (q : Fin N), p = ix2 r q := ⟨p 0, p 1, eq_ix2 p⟩
  show ∑ k : Fin T, J (ix2 r k) * W (ix2 k q)
      = (∑ k : Fin K, A (ix2 r k) * W (ix2 ⟨0 + k.val, by omega⟩ q)) + (∑ k : Fin K, B (ix2 r k) * W (ix2 ⟨K + k.val, by omega⟩ q))
        + ∑ k : Fin K, C (ix2 r k) * W (ix2 ⟨K + K + k.val, by omega⟩ q)
  refine (sum_split (K + K) K T hT _).trans (congrArg₂ (· + ·) ?_ (Finset.sum_congr rfl fun k _ => ?_))
  · refine (sum_split K K (K + K) rfl _).trans (congrArg₂ (· + ·) (Finset.sum_congr rfl fun k _ => ?_) (Finset.sum_congr rfl fun k _ => ?_))
    · exact congrArg₂ (· * ·) (hA r k) (congrArg (fun z => W (ix2 z q)) (Fin.ext (Nat.zero_add _).symm))
    · exact congrArg (· * _) (hB r k)
  · exact congrArg (· * _) (hC r k)

end Cert.Linear

end
-- ==== Proof.Spec.lean ====
/-
  One message-passing step on a graph, as plain functions of its arrays over the extended reals.

  Every node carries a state row of width 128. For every edge the two endpoint rows are multiplied by the two
  row halves of the first edge weight (a 256 × 256 matrix), added with a bias, clipped below at zero, multiplied by
  the second edge weight and shifted by a second bias: the edge's message (`edgeMsg`). The messages are summed per
  destination node elsewhere. Each node then forms four gates of width 128 from four matrix products and two biases
  (`gates`), a new cell row (`cNew`) and a new state row (`hNew`) from the logistic function and the hyperbolic
  tangent of the gates, and an output row from a two-layer network on the new state (`outMlp`).

  All these functions are written for an arbitrary number of rows, and each works row by row: the result's row
  `r` depends on row `r` of every row-indexed operand only. That is stated once per function as "re-indexing the rows
  of the operands re-indexes the rows of the result" (`rowsAt`), which is what turns a function of a block of rows
  into the block of the function of all rows.
-/
import Idealize.ShloMosaic.PureOps.Ideal.Laws
import Idealize.ShloMosaic.Lib.ValueIdx
import proofs.«117058_j55439437856890_2_alg».proof.Proof.LibMatProd
import proofs.«117058_j55439437856890_2_alg».proof.Proof.LibStackedProd

noncomputable section

open scoped BigOperators

namespace Cert.Gnn

open Idealize.ShloMosaic Idealize.ShloMosaic.ValueIdx Cert.Linear

/-- The float word of zero, read at the ideal values; both programs spell this same word, so it is never evaluated. -/
abbrev z32 : EReal := Ideal.ofBits .f32 0x00000000#32

/-! ## The edge messages -/

/-- The hidden layer of an edge: both endpoint rows against their halves of the first weight, the bias, clipped at zero. -/
def hidden {E : Nat} (hs hd : (Mat E 128).Idx → EReal) (Wa Wb : (Mat 128 256).Idx → EReal) (b1 : (Vc 256).Idx → EReal) :
    (Mat E 256).Idx → EReal :=
  fun p => max (matProd hs Wa p + matProd hd Wb p + b1 (ix1 (p 1))) z32

/-- The message of an edge: the hidden layer against the second weight, plus the second bias. -/
def edgeMsg {E : Nat} (hs hd : (Mat E 128).Idx → EReal) (Wa Wb : (Mat 128 256).Idx → EReal) (b1 : (Vc 256).Idx → EReal)
    (W2 : (Mat 256 128).Idx → EReal) (b2 : (Vc 128).Idx → EReal) : (Mat E 128).Idx → EReal :=
  fun i => matProd (hidden hs hd Wa Wb b1) W2 i + b2 (ix1 (i 1))

theorem edgeMsg_rowsAt {n E : Nat} (f : Fin n → Fin E) (hs hd : (Mat E 128).Idx → EReal) (Wa Wb : (Mat 128 256).Idx → EReal)
    (b1 : (Vc 256).Idx → EReal) (W2 : (Mat 256 128).Idx → EReal) (b2 : (Vc 128).Idx → EReal) :
    edgeMsg (rowsAt f hs) (rowsAt f hd) Wa Wb b1 W2 b2 = rowsAt f (edgeMsg hs hd Wa Wb b1 W2 b2) := rfl

/-! ## The node update -/

/-- The four gates of a node, side by side in 512 columns: four products and two biases, added from the left. -/
def gates {N : Nat} (hs x sm h0 : (Mat N 128).Idx → EReal) (Wh Wx Wm Whh : (Mat 128 512).Idx → EReal)
    (bi bh : (Vc 512).Idx → EReal) : (Mat N 512).Idx → EReal :=
  fun p => matProd hs Wh p + matProd x Wx p + matProd sm Wm p + matProd h0 Whh p + bi (ix1 (p 1)) + bh (ix1 (p 1))

/-- Columns `o … o+127` of the gates. -/
def gateAt {N : Nat} (o : Nat) (h : o + 128 ≤ 512) (g : (Mat N 512).Idx → EReal) : (Mat N 128).Idx → EReal :=
  fun i => g (ix2 (i 0) ⟨o + (i 1).val, Nat.lt_of_lt_of_le (Nat.add_lt_add_left (idx2_lt1 i) o) h⟩)

/-- The new cell row: the forget gate's logistic times the old cell, plus the input gate's logistic times the
    candidate's hyperbolic tangent. -/
def cNew {N : Nat} (g : (Mat N 512).Idx → EReal) (c0 : (Mat N 128).Idx → EReal) : (Mat N 128).Idx → EReal :=
  fun i => Ideal.logistic (gateAt 128 (by omega) g i) * c0 i
    + Ideal.logistic (gateAt 0 (by omega) g i) * Ideal.tanh (gateAt 256 (by omega) g i)

/-- The new state row: the output gate's logistic times the hyperbolic tangent of the new cell. -/
def hNew {N : Nat} (g : (Mat N 512).Idx → EReal) (c0 : (Mat N 128).Idx → EReal) : (Mat N 128).Idx → EReal :=
  fun i => Ideal.logistic (gateAt 384 (by omega) g i) * Ideal.tanh (cNew g c0 i)

/-- The output network on a state row: a layer clipped at zero, then a second layer. -/
def outMlp {N : Nat} (h : (Mat N 128).Idx → EReal) (Wo1 : (Mat 128 128).Idx → EReal) (bo1 : (Vc 128).Idx → EReal)
    (Wo2 : (Mat 128 64).Idx → EReal) (bo2 : (Vc 64).Idx → EReal) : (Mat N 64).Idx → EReal :=
  fun i => matProd (fun p => max (matProd h Wo1 p + bo1 (ix1 (p 1))) z32) Wo2 i + bo2 (ix1 (i 1))

theorem gates_rowsAt {n N : Nat} (f : Fin n → Fin N) (hs x sm h0 : (Mat N 128).Idx → EReal) (Wh Wx Wm Whh : (Mat 128 512).Idx → EReal)
    (bi bh : (Vc 512).Idx → EReal) :
    gates (rowsAt f hs) (rowsAt f x) (rowsAt f sm) (rowsAt f h0) Wh Wx Wm Whh bi bh
      = rowsAt f (gates hs x sm h0 Wh Wx Wm Whh bi bh) := rfl

theorem cNew_rowsAt {n N : Nat} (f : Fin n → Fin N) (g : (Mat N 512).Idx → EReal) (c0 : (Mat N 128).Idx → EReal) :
    cNew (rowsAt f g) (rowsAt f c0) = rowsAt f (cNew g c0) := rfl

theorem hNew_rowsAt {n N : Nat} (f : Fin n → Fin N) (g : (Mat N 512).Idx → EReal) (c0 : (Mat N 128).Idx → EReal) :
    hNew (rowsAt f g) (rowsAt f c0) = rowsAt f (hNew g c0) := rfl

theorem outMlp_rowsAt {n N : Nat} (f : Fin n → Fin N) (h : (Mat N 128).Idx → EReal) (Wo1 : (Mat 128 128).Idx → EReal)
    (bo1 : (Vc 128).Idx → EReal) (Wo2 : (Mat 128 64).Idx → EReal) (bo2 : (Vc 64).Idx → EReal) :
    outMlp (rowsAt f h) Wo1 bo1 Wo2 bo2 = rowsAt f (outMlp h Wo1 bo1 Wo2 bo2) := rfl

end Cert.Gnn

end
-- ==== Proof.LibRowLayout.lean ====
/-
  GENERAL LEMMAS: layout operations read as whole-array equalities over the extended reals.

  A cut of `r` rows out of a matrix is the row block (`slice_rows`). A vector laid as one row and repeated over all rows
  — spelled by a kernel as a shape cast `[b] → [1, b]` then a broadcast `[1, b] → [a, b]` (`biasRows`), by the host as
  two broadcasts (`biasRowsHost`) — holds at `(r, k)` the vector's entry `k`. A `[1, a, b]` array read as `[a, b]` holds
  at `(i, j)` the entry `(0, i, j)` (`shapeCast_dropUnit`). A change of float format is the identity on the extended
  reals (`truncf_id`); the float word `0x3F800000` denotes 1 (`one_word`), and one over one plus the exponential of the
  negation, with the ones written as that word, is the logistic function at every extended real, the infinities
  included (`logistic_words`).
-/
import proofs.«117058_j55439437856890_2_alg».proof.Proof.LibStackedProd
import Idealize.ShloMosaic.Lib.Pipeline.Value
import Idealize.ShloMosaic.Lib.ValueLayout
import Idealize.ShloMosaic.PureOps.IdealRules

noncomputable section

namespace Cert.Linear

open Idealize.ShloMosaic Idealize.ShloMosaic.ValueIdx

/-- Rows `o … o + r − 1` cut out of a matrix. -/
theorem slice_rows {R C r : Nat} (o : Nat) (W : (Mat R C).Idx → EReal) (h : (Mat R C).Slices ![o, 0] (Mat r C)) (hb : o + r ≤ R) :
    extractStridedSlice (Mat r C) ![o, 0] W h = rowBlock r o hb W := by
  funext i
  obtain ⟨a, b, rfl⟩ : ∃ (a : Fin r) (b : Fin C), i = ix2 a b := ⟨i 0, i 1, eq_ix2 i⟩
  exact slice2_axis0_eq o W h a b

/-- The kernel's spelling of a bias row over all rows. -/
theorem biasRows {a b : Nat} (v : (Vc b).Idx → EReal) (h1 : (Vc b).ShapeCasts (Mat 1 b)) (h2 : (Mat 1 b).Broadcasts (Mat a b)) :
    broadcastTo (Mat a b) (shapeCast (Mat 1 b) v h1) h2 = fun p => v (ix1 (p 1)) := by
  funext p
  obtain ⟨r, k, rfl⟩ : ∃ (r : Fin a) (k : Fin b), p = ix2 r k := ⟨p 0, p 1, eq_ix2 p⟩
  exact (broadcastTo_1b_ab_apply _ h2 r k).trans (shapeCast_a_1a_apply v h1 0 k)

/-- The host's spelling of a bias row over all rows. -/
theorem biasRowsHost {a b : Nat} (v : (Vc b).Idx → EReal) (h1 : (Vc b).BroadcastsInDim (Mat 1 b) ![1])
    (h2 : (Mat 1 b).BroadcastsInDim (Mat a b) ![0, 1]) :
    broadcastInDim (Mat a b) ![0, 1] h2 (broadcastInDim (Mat 1 b) ![1] h1 v) = fun p => v (ix1 (p 1)) := by
  funext p
  obtain ⟨r, k, rfl⟩ : ∃ (r : Fin a) (k : Fin b), p = ix2 r k := ⟨p 0, p 1, eq_ix2 p⟩
  have hk : k.val < b := k.isLt
  exact (broadcastInDim_apply _ h2 _ (ix2 r k) (ix2 (0 : Fin 1) k) (fun ax => by
      match ax with
      | ⟨0, _⟩ => rfl
      | ⟨1, _⟩ => show k.val = if b = 1 then 0 else k.val; split <;> omega)).trans
    (broadcastInDim_apply _ h1 v (ix2 (0 : Fin 1) k) (ix1 k) (fun ax => by
      match ax with
      | ⟨0, _⟩ => show k.val = if b = 1 then 0 else k.val; split <;> omega))

/-- A `[1, a, b]` array with its unit axis dropped. -/
def dropUnit {a b : Nat} (x : (⟨3, ![1, a, b]⟩ : Shape).Idx → EReal) : (Mat a b).Idx → EReal :=
  fun i => x (ix3 (0 : Fin 1) (i 0) (i 1))

theorem shapeCast_dropUnit {a b : Nat} (x : (⟨3, ![1, a, b]⟩ : Shape).Idx → EReal)
    (h : (⟨3, ![1, a, b]⟩ : Shape).ShapeCasts (Mat a b)) : shapeCast (Mat a b) x h = dropUnit x := by
  funext i
  obtain ⟨r, k, rfl⟩ : ∃ (r : Fin a) (k : Fin b), i = ix2 r k := ⟨i 0, i 1, eq_ix2 i⟩
  exact shapeCast_1ab_ab_apply x h r k

/-- A change of float format is the identity on the extended reals. -/
theorem truncf_id {s : Shape} {φ ψ : FTy} (x : FVec Ideal s φ) (h : ψ.bits < φ.bits) : truncf ψ x h = x := rfl

/-- The float word of one denotes 1. -/
theorem one_word : Ideal.ofBits .f32 0x3F800000#32 = 1 := by simp [Ideal.ofBits, Ideal.ieee, -EReal.coe_mul]; norm_num

/-- The logistic function as the host spells it: one over one plus the exponential of the negation, the ones written
    as float words. -/
theorem logistic_words (x : EReal) :
    Ideal.div (Ideal.ofBits .f32 0x3F800000#32) (Ideal.ofBits .f32 0x3F800000#32 + Ideal.exp (-x)) = Ideal.logistic x := by
  rw [one_word]; rfl

end Cert.Linear

end
-- ==== Proof.Layout.lean ====
/-
  The gate blocks of the node update: a cut of 128 columns out of the 512 gate columns is the gate block.
-/
import proofs.«117058_j55439437856890_2_alg».proof.Proof.Spec
import proofs.«117058_j55439437856890_2_alg».proof.Proof.LibRowLayout
import Idealize.ShloMosaic.Lib.Pipeline.Value
import Idealize.ShloMosaic.Lib.ValueLayout

noncomputable section

namespace Cert.Gnn

open Idealize.ShloMosaic Idealize.ShloMosaic.ValueIdx Cert.Linear

/-- Columns `o … o + 127` cut out of the gates. -/
theorem slice_cols {N : Nat} (o : Nat) (g : (Mat N 512).Idx → EReal) (h : (Mat N 512).Slices ![0, o] (Mat N 128)) (hb : o + 128 ≤ 512) :
    extractStridedSlice (Mat N 128) ![0, o] g h = gateAt o hb g := by
  funext i
  obtain ⟨a, b, rfl⟩ : ∃ (a : Fin N) (b : Fin 128), i = ix2 a b := ⟨i 0, i 1, eq_ix2 i⟩
  exact slice2_axis1_eq o g h a b

end Cert.Gnn

end
-- ==== Proof.Region0.lean ====
/-
  The edge kernel's grid, read as one function of the arrays it finds.

  The grid has 40 points; point `t` is handed rows `8000·t … 8000·t + 7999` of the two gathered endpoint arrays and the
  whole of the five parameter arrays, and writes back the same rows of the message array. The body's one stored
  value is the edge message function of its loaded blocks: three matrix products accumulated into zero, two bias rows
  broadcast over the rows, one clip at zero, and changes of float format that are the identity on the extended reals.
  Because the message function works row by row, what point `t` writes back is rows `8000·t …` of the message function of
  the WHOLE arrays; the 40 blocks tile the 320000 rows, so after the grid the message array is that function of the
  whole arrays.
-/
import proofs.«117058_j55439437856890_2_alg».proof.Proof.Gen.KernelIdeal.Frame
import proofs.«117058_j55439437856890_2_alg».proof.Proof.Spec
import proofs.«117058_j55439437856890_2_alg».proof.Proof.Layout
import Idealize.ShloMosaic.Lib.Pipeline.Value
import Idealize.ShloMosaic.Lib.ValueLayout

set_option maxRecDepth 16384

noncomputable section

namespace Cert.KernelIdeal.Edge

open Cert.KernelIdeal Cert.KernelIdeal.Gen
open Idealize.ShloMosaic Idealize.ShloMosaic.TcCoe Idealize.ShloMosaic.ValueIdx Idealize.SL.Sem
open Idealize.ShloMosaic.Pipeline (Dat)
open Cert.Linear Cert.Gnn

/-! ## The three products' dimension records contract columns with rows -/

theorem c_src : Contracts (R := 8000) (K := 128) (N := 256) dot_S8000x128_S128x256_S8000x256_1_0_0_1_n_n where
  rank := rfl
  size := rfl
  lhs0 := fun i q => by
    unfold DotDims.lhsIdx
    rw [dif_neg (show ¬(0 : Fin (Mat 8000 128).rank) ∈ dot_S8000x128_S128x256_S8000x256_1_0_0_1_n_n.lhsBatch by decide),
      dif_pos (show (0 : Fin (Mat 8000 128).rank) ∈ dot_S8000x128_S128x256_S8000x256_1_0_0_1_n_n.lhsNonContracting by decide)]
    rfl
  lhs1 := fun i q => dot_S8000x128_S128x256_S8000x256_1_0_0_1_n_n.lhsIdx_val_of_single rfl i q
  rhs0 := fun i q => dot_S8000x128_S128x256_S8000x256_1_0_0_1_n_n.rhsIdx_val_of_single rfl i q
  rhs1 := fun i q => by
    unfold DotDims.rhsIdx
    rw [dif_neg (show ¬(1 : Fin (Mat 128 256).rank) ∈ dot_S8000x128_S128x256_S8000x256_1_0_0_1_n_n.rhsBatch by decide),
      dif_pos (show (1 : Fin (Mat 128 256).rank) ∈ dot_S8000x128_S128x256_S8000x256_1_0_0_1_n_n.rhsNonContracting by decide)]
    rfl

theorem c_out : Contracts (R := 8000) (K := 256) (N := 128) dot_S8000x256_S256x128_S8000x128_1_0_0_1_n_n where
  rank := rfl
  size := rfl
  lhs0 := fun i q => by
    unfold DotDims.lhsIdx
    rw [dif_neg (show ¬(0 : Fin (Mat 8000 256).rank) ∈ dot_S8000x256_S256x128_S8000x128_1_0_0_1_n_n.lhsBatch by decide),
      dif_pos (show (0 : Fin (Mat 8000 256).rank) ∈ dot_S8000x256_S256x128_S8000x128_1_0_0_1_n_n.lhsNonContracting by decide)]
    rfl
  lhs1 := fun i q => dot_S8000x256_S256x128_S8000x128_1_0_0_1_n_n.lhsIdx_val_of_single rfl i q
  rhs0 := fun i q => dot_S8000x256_S256x128_S8000x128_1_0_0_1_n_n.rhsIdx_val_of_single rfl i q
  rhs1 := fun i q => by
    unfold DotDims.rhsIdx
    rw [dif_neg (show ¬(1 : Fin (Mat 256 128).rank) ∈ dot_S8000x256_S256x128_S8000x128_1_0_0_1_n_n.rhsBatch by decide),
      dif_pos (show (1 : Fin (Mat 256 128).rank) ∈ dot_S8000x256_S256x128_S8000x128_1_0_0_1_n_n.rhsNonContracting by decide)]
    rfl

/-! ## Layout forms of the body -/

theorem hz2 : (![0, 0] : Fin 2 → Nat) = fun _ => 0 := funext fun a => by fin_cases a <;> rfl
theorem hz1 : (![0] : Fin 1 → Nat) = fun _ => 0 := funext fun a => by fin_cases a <;> rfl

/-! ## The body's stored value is the message function of its loaded blocks -/

theorem pay_eq (x0 x1 : Vec Ideal S8000x128 .bf16) (x2 x3 : Vec Ideal S128x256 .f32) (x4 : Vec Ideal S256 .f32)
    (x5 : Vec Ideal S256x128 .f32) (x6 : Vec Ideal S128 .f32) :
    k0_pay1 (F := Ideal) x0 x1 x2 x3 x4 x5 x6 = edgeMsg (E := 8000) x0 x1 x2 x3 x4 x5 x6 := by
  unfold k0_pay1
  simp only [shapeCast_self, matmul]
  rw [matmul_zero_eq c_src, matmul_zero_eq c_src, matmul_zero_eq c_out, biasRows, biasRows]
  rfl

/-! ## The windows' blocks at a point -/

/-- The printed index maps, decided over the grid: the three row-blocked windows sit at block `t`, the five parameter
    windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem t_lt (t : Fin cfg0.N) : t.val < 40 := Nat.lt_of_lt_of_eq t.isLt N_0

/-- Row `r` of point `t`'s block is row `8000·t + r` of the array. -/
def rowOf (t : Fin cfg0.N) : Fin 8000 → Fin 320000 :=
  fun r => ⟨t.val * 8000 + r.val, by have := t_lt t; have := r.isLt; omega⟩

variable (V : (c : Dev nD) → (b : Ref sig .tc) → Buf (Elt Ideal) ((c : Thread nD τ).loc b))

theorem blk0 (c : Dev nD) (t : Fin cfg0.N) : iblk0 V c 0 t = rowsAt (rowOf t) (V c main_v7) := by
  obtain ⟨e0, e1, -⟩ := idx_facts t
  funext y
  show V c main_v7 (((cfg0.win 0).blk t).view.emb y) = V c main_v7 (ix2 (rowOf t (y 0)) (y 1))
  refine congrArg (V c main_v7) (funext fun a => Fin.ext ?_)
  match a with
  | ⟨0, _⟩ => show win0_0.index t (0 : Fin 2) * 8000 + 1 * (y 0).val = t.val * 8000 + (y 0).val; omega
  | ⟨1, _⟩ => show win0_0.index t (1 : Fin 2) * 128 + 1 * (y 1).val = (y 1).val; omega

theorem blk1 (c : Dev nD) (t : Fin cfg0.N) : iblk0 V c 1 t = rowsAt (rowOf t) (V c main_v14) := by
  obtain ⟨-, -, e0, e1, -⟩ := idx_facts t
  funext y
  show V c main_v14 (((cfg0.win 1).blk t).view.emb y) = V c main_v14 (ix2 (rowOf t (y 0)) (y 1))
  refine congrArg (V c main_v14) (funext fun a => Fin.ext ?_)
  match a with
  | ⟨0, _⟩ => show win0_1.index t (0 : Fin 2) * 8000 + 1 * (y 0).val = t.val * 8000 + (y 0).val; omega
  | ⟨1, _⟩ => show win0_1.index t (1 : Fin 2) * 128 + 1 * (y 1).val = (y 1).val; omega

theorem blk2 (c : Dev nD) (t : Fin cfg0.N) : iblk0 V c 2 t = V c main_v15 := by
  obtain ⟨-, -, -, -, e0, e1, -⟩ := idx_facts t
  funext y
  show V c main_v15 (((cfg0.win 2).blk t).view.emb y) = V c main_v15 y
  refine congrArg (V c main_v15) (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem blk3 (c : Dev nD) (t : Fin cfg0.N) : iblk0 V c 3 t = V c main_v16 := by
  obtain ⟨-, -, -, -, -, -, e0, e1, -⟩ := idx_facts t
  funext y
  show V c main_v16 (((cfg0.win 3).blk t).view.emb y) = V c main_v16 y
  refine congrArg (V c main_v16) (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

theorem blk4 (c : Dev nD) (t : Fin cfg0.N) : iblk0 V c 4 t = V c main_arg7 := by
  obtain ⟨-, -, -, -, -, -, -, -, e0, -⟩ := idx_facts t
  funext y
  show V c main_arg7 (((cfg0.win 4).blk t).view.emb y) = V c main_arg7 y
  refine congrArg (V c main_arg7) (funext fun a => Fin.ext ?_)
  match a with
  | ⟨0, _⟩ => show win0_4.index t (0 : Fin 1) * 256 + 1 * (y 0).val = (y 0).val; omega

theorem blk5 (c : Dev nD) (t : Fin cfg0.N) : iblk0 V c 5 t = V c main_arg8 := by
  obtain ⟨-, -, -, -, -, -, -, -, -, e0, e1, -⟩ := idx_facts t
  funext y
  show V c main_arg8 (((cfg0.win 5).blk t).view.emb y) = V c main_arg8 y
  refine congrArg (V c main_arg8) (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

theorem blk6 (c : Dev nD) (t : Fin cfg0.N) : iblk0 V c 6 t = V c main_arg9 := by
  obtain ⟨-, -, -, -, -, -, -, -, -, -, -, e0, -⟩ := idx_facts t
  funext y
  show V c main_arg9 (((cfg0.win 6).blk t).view.emb y) = V c main_arg9 y
  refine congrArg (V c main_arg9) (funext fun a => Fin.ext ?_)
  match a with
  | ⟨0, _⟩ => show win0_6.index t (0 : Fin 1) * 128 + 1 * (y 0).val = (y 0).val; omega

/-! ## From the blocks to the array -/

/-- The message function of the whole arrays the region finds. -/
def msgOf (c : Dev nD) : S320000x128.Idx → EReal :=
  edgeMsg (E := 320000) (V c main_v7) (V c main_v14) (V c main_v15) (V c main_v16) (V c main_arg7) (V c main_arg8) (V c main_arg9)

/-- What point `t` writes back is block `t` of the message function of the whole arrays. -/
theorem flushed_eq (c : Dev nD) (t : Fin cfg0.N) :
    (dat0 V c).flushed 7 t = ((cfg0.win 7).blk t).view.read (Elt Ideal) (msgOf V c) := by
  show (cfg0.win 7).cut (grid0.coords t) ((dat0 V c).after 7 t) = _
  rw [after0_7]
  unfold out0_7
  rw [View.canon_unit_zero hz2]
  simp only [View.ld_unit_zero (S := S8000x128) hz2, View.ld_unit_zero (S := S128x256) hz2, View.ld_unit_zero (S := S256) hz1,
    View.ld_unit_zero (S := S256x128) hz2, View.ld_unit_zero (S := S128) hz1]
  rw [pay_eq, blk0 V c t, blk1 V c t, blk2 V c t, blk3 V c t, blk4 V c t, blk5 V c t, blk6 V c t, edgeMsg_rowsAt]
  obtain ⟨-, -, -, -, -, -, -, -, -, -, -, -, e0, e1⟩ := idx_facts t
  funext y
  show msgOf V c (ix2 (rowOf t (y 0)) (y 1)) = msgOf V c (((cfg0.win 7).blk t).view.emb y)
  refine congrArg (msgOf V c) (funext fun a => Fin.ext ?_)
  match a with
  | ⟨0, _⟩ => show t.val * 8000 + (y 0).val = win0_7.index t (0 : Fin 2) * 8000 + 1 * (y 0).val; omega
  | ⟨1, _⟩ => show (y 1).val = win0_7.index t (1 : Fin 2) * 128 + 1 * (y 1).val; omega

/-- An index of the message array is in point `t`'s block iff each coordinate is in the block's range on its axis. -/
theorem mem_blk (t : Fin cfg0.N) (i : S320000x128.Idx) :
    i ∈ ((cfg0.win 7).blk t).view.set ↔ ∀ a : Fin 2, win0_7.index t a * S8000x128.size a ≤ (i a).val ∧ (i a).val < win0_7.index t a * S8000x128.size a + S8000x128.size a := by
  show i ∈ ((View.whole main_v17).slice (win0_7.rect t)).set ↔ _
  rw [View.set_slice_whole, Rect.mem_set_unit]
  exact Iff.rfl

/-- Every row lies in the block of the point `row / 8000`. -/
theorem cover (i : S320000x128.Idx) : ∃ t : Fin cfg0.N, (cfg0.win 7).flush t = true ∧ i ∈ ((cfg0.win 7).blk t).view.set := by
  have hi0 : (i 0).val < 320000 := (i 0).isLt
  have hi1 : (i 1).val < 128 := (i 1).isLt
  refine ⟨⟨(i 0).val / 8000, by rw [show cfg0.N = 40 from N_0]; omega⟩, flush0_7 _, ?_⟩
  rw [mem_blk]
  obtain ⟨-, -, -, -, -, -, -, -, -, -, -, -, e0, e1⟩ := idx_facts ⟨(i 0).val / 8000, by rw [show cfg0.N = 40 from N_0]; omega⟩
  intro a
  match a with
  | ⟨0, _⟩ =>
    show win0_7.index _ (0 : Fin 2) * 8000 ≤ (i 0).val ∧ (i 0).val < win0_7.index _ (0 : Fin 2) * 8000 + 8000
    rw [e0]; show (i 0).val / 8000 * 8000 ≤ (i 0).val ∧ (i 0).val < (i 0).val / 8000 * 8000 + 8000; omega
  | ⟨1, _⟩ =>
    show win0_7.index _ (1 : Fin 2) * 128 ≤ (i 1).val ∧ (i 1).val < win0_7.index _ (1 : Fin 2) * 128 + 128
    rw [e1]; omega

/-- After the grid the message array is the message function of the whole arrays the region found. -/
theorem final (c : Dev nD) : (dat0 V c).arrAt 7 cfg0.N = msgOf V c :=
  (dat0 V c).arrAt_eq_of_cover 7 (msgOf V c) (fun t _ => flushed_eq V c t) (cover)

end Cert.KernelIdeal.Edge

end
-- ==== Proof.Region1.lean ====
/-
  The node kernel's grid, read as functions of the arrays it finds.

  The grid has 10 points; point `t` is handed rows `1000·t … 1000·t + 999` of the five node arrays (state, input, summed
  messages, old state, old cell) and the whole of the ten parameter arrays, and writes back the same rows of three
  arrays: the output rows, the new state rows, the new cell rows. The body forms the gates from four matrix products
  accumulated into zero and two bias rows, cuts the four gate blocks out of the 512 columns, applies the logistic
  function and the hyperbolic tangent, and runs the two-layer output network on the new state; changes of float
  format are the identity on the extended reals. Each stored value is a row-by-row function of the loaded blocks,
  so what point `t` writes back is rows `1000·t …` of that function of the WHOLE arrays, and the 10 blocks tile the
  10000 rows.
-/
import proofs.«117058_j55439437856890_2_alg».proof.Proof.Gen.KernelIdeal.Frame
import proofs.«117058_j55439437856890_2_alg».proof.Proof.Spec
import proofs.«117058_j55439437856890_2_alg».proof.Proof.Layout
import Idealize.ShloMosaic.Lib.Pipeline.Value
import Idealize.ShloMosaic.Lib.ValueLayout

set_option maxRecDepth 16384

noncomputable section

namespace Cert.KernelIdeal.Node

open Cert.KernelIdeal Cert.KernelIdeal.Gen
open Idealize.ShloMosaic Idealize.ShloMosaic.TcCoe Idealize.ShloMosaic.ValueIdx Idealize.SL.Sem
open Idealize.ShloMosaic.Pipeline (Dat)
open Cert.Linear Cert.Gnn

/-! ## The three kinds of product contract columns with rows -/

theorem c_gate : Contracts (R := 1000) (K := 128) (N := 512) dot_S1000x128_S128x512_S1000x512_1_0_0_1_n_n where
  rank := rfl
  size := rfl
  lhs0 := fun i q => by
    unfold DotDims.lhsIdx
    rw [dif_neg (show ¬(0 : Fin (Mat 1000 128).rank) ∈ dot_S1000x128_S128x512_S1000x512_1_0_0_1_n_n.lhsBatch by decide),
      dif_pos (show (0 : Fin (Mat 1000 128).rank) ∈ dot_S1000x128_S128x512_S1000x512_1_0_0_1_n_n.lhsNonContracting by decide)]
    rfl
  lhs1 := fun i q => dot_S1000x128_S128x512_S1000x512_1_0_0_1_n_n.lhsIdx_val_of_single rfl i q
  rhs0 := fun i q => dot_S1000x128_S128x512_S1000x512_1_0_0_1_n_n.rhsIdx_val_of_single rfl i q
  rhs1 := fun i q => by
    unfold DotDims.rhsIdx
    rw [dif_neg (show ¬(1 : Fin (Mat 128 512).rank) ∈ dot_S1000x128_S128x512_S1000x512_1_0_0_1_n_n.rhsBatch by decide),
      dif_pos (show (1 : Fin (Mat 128 512).rank) ∈ dot_S1000x128_S128x512_S1000x512_1_0_0_1_n_n.rhsNonContracting by decide)]
    rfl

theorem c_hid : Contracts (R := 1000) (K := 128) (N := 128) dot_S1000x128_S128x128_S1000x128_1_0_0_1_n_n where
  rank := rfl
  size := rfl
  lhs0 := fun i q => by
    unfold DotDims.lhsIdx
    rw [dif_neg (show ¬(0 : Fin (Mat 1000 128).rank) ∈ dot_S1000x128_S128x128_S1000x128_1_0_0_1_n_n.lhsBatch by decide),
      dif_pos (show (0 : Fin (Mat 1000 128).rank) ∈ dot_S1000x128_S128x128_S1000x128_1_0_0_1_n_n.lhsNonContracting by decide)]
    rfl
  lhs1 := fun i q => dot_S1000x128_S128x128_S1000x128_1_0_0_1_n_n.lhsIdx_val_of_single rfl i q
  rhs0 := fun i q => dot_S1000x128_S128x128_S1000x128_1_0_0_1_n_n.rhsIdx_val_of_single rfl i q
  rhs1 := fun i q => by
    unfold DotDims.rhsIdx
    rw [dif_neg (show ¬(1 : Fin (Mat 128 128).rank) ∈ dot_S1000x128_S128x128_S1000x128_1_0_0_1_n_n.rhsBatch by decide),
      dif_pos (show (1 : Fin (Mat 128 128).rank) ∈ dot_S1000x128_S128x128_S1000x128_1_0_0_1_n_n.rhsNonContracting by decide)]
    rfl

theorem c_out : Contracts (R := 1000) (K := 128) (N := 64) dot_S1000x128_S128x64_S1000x64_1_0_0_1_n_n where
  rank := rfl
  size := rfl
  lhs0 := fun i q => by
    unfold DotDims.lhsIdx
    rw [dif_neg (show ¬(0 : Fin (Mat 1000 128).rank) ∈ dot_S1000x128_S128x64_S1000x64_1_0_0_1_n_n.lhsBatch by decide),
      dif_pos (show (0 : Fin (Mat 1000 128).rank) ∈ dot_S1000x128_S128x64_S1000x64_1_0_0_1_n_n.lhsNonContracting by decide)]
    rfl
  lhs1 := fun i q => dot_S1000x128_S128x64_S1000x64_1_0_0_1_n_n.lhsIdx_val_of_single rfl i q
  rhs0 := fun i q => dot_S1000x128_S128x64_S1000x64_1_0_0_1_n_n.rhsIdx_val_of_single rfl i q
  rhs1 := fun i q => by
    unfold DotDims.rhsIdx
    rw [dif_neg (show ¬(1 : Fin (Mat 128 64).rank) ∈ dot_S1000x128_S128x64_S1000x64_1_0_0_1_n_n.rhsBatch by decide),
      dif_pos (show (1 : Fin (Mat 128 64).rank) ∈ dot_S1000x128_S128x64_S1000x64_1_0_0_1_n_n.rhsNonContracting by decide)]
    rfl

theorem hz2 : (![0, 0] : Fin 2 → Nat) = fun _ => 0 := funext fun a => by fin_cases a <;> rfl
theorem hz1 : (![0] : Fin 1 → Nat) = fun _ => 0 := funext fun a => by fin_cases a <;> rfl

/-! ## The body's values are the node functions of its loaded blocks -/

theorem pay4_eq (hs x sm : Vec Ideal S1000x128 .f32) (Wh Wx Wm : Vec Ideal S128x512 .f32) (h0 : Vec Ideal S1000x128 .f32)
    (Whh : Vec Ideal S128x512 .f32) (bi bh : Vec Ideal S512 .f32) :
    k1_pay4 (F := Ideal) hs x sm Wh Wx Wm h0 Whh bi bh = gates (N := 1000) hs x sm h0 Wh Wx Wm Whh bi bh := by
  unfold k1_pay4
  simp only [shapeCast_self, matmul]
  rw [matmul_zero_eq c_gate, matmul_zero_eq c_gate, matmul_zero_eq c_gate, matmul_zero_eq c_gate, biasRows, biasRows]
  rfl

theorem pay5_eq (hs x sm : Vec Ideal S1000x128 .f32) (Wh Wx Wm : Vec Ideal S128x512 .f32) (h0 : Vec Ideal S1000x128 .f32)
    (Whh : Vec Ideal S128x512 .f32) (bi bh : Vec Ideal S512 .f32) :
    k1_pay5 (F := Ideal) hs x sm Wh Wx Wm h0 Whh bi bh = gateAt 0 (by omega) (k1_pay4 (F := Ideal) hs x sm Wh Wx Wm h0 Whh bi bh) := by
  unfold k1_pay5
  exact slice_cols 0 _ _ _

theorem pay1_eq (g : (Mat 1000 512).Idx → EReal) (c0 : Vec Ideal S1000x128 .f32) :
    k1_pay1 (F := Ideal) g (gateAt 0 (by omega) g) c0 = cNew (N := 1000) g c0 := by
  unfold k1_pay1
  simp only [shapeCast_self]
  rw [slice_cols 128 g _ (by omega), slice_cols 256 g _ (by omega)]
  rfl

theorem pay2_eq (g : (Mat 1000 512).Idx → EReal) (c0 : Vec Ideal S1000x128 .f32) :
    k1_pay2 (F := Ideal) g (gateAt 0 (by omega) g) c0 = hNew (N := 1000) g c0 := by
  unfold k1_pay2
  rw [pay1_eq, slice_cols 384 g _ (by omega)]
  rfl

theorem pay3_eq (g : (Mat 1000 512).Idx → EReal) (c0 : Vec Ideal S1000x128 .f32) (Wo1 : Vec Ideal S128x128 .f32)
    (bo1 : Vec Ideal S128 .f32) (Wo2 : Vec Ideal S128x64 .f32) (bo2 : Vec Ideal S64 .f32) :
    k1_pay3 (F := Ideal) g (gateAt 0 (by omega) g) c0 Wo1 bo1 Wo2 bo2 = outMlp (N := 1000) (hNew g c0) Wo1 bo1 Wo2 bo2 := by
  unfold k1_pay3
  simp only [matmul]
  rw [pay2_eq, matmul_zero_eq c_hid, matmul_zero_eq c_out, biasRows, biasRows]
  rfl

/-! ## The windows' blocks at a point -/

/-- The printed index maps, decided over the grid: the row-blocked windows sit at block `t`, the parameter windows at
    block 0. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 1) = 0
    ∧ win1_10.index t (0 : Fin 1) = 0
    ∧ win1_11.index t (0 : Fin 2) = 0
    ∧ win1_11.index t (1 : Fin 2) = 0
    ∧ win1_12.index t (0 : Fin 1) = 0
    ∧ win1_13.index t (0 : Fin 2) = 0
    ∧ win1_13.index t (1 : Fin 2) = 0
    ∧ win1_14.index t (0 : Fin 1) = 0
    ∧ win1_15.index t (0 : Fin 2) = t.val
    ∧ win1_15.index t (1 : Fin 2) = 0
    ∧ win1_16.index t (0 : Fin 2) = t.val
    ∧ win1_16.index t (1 : Fin 2) = 0
    ∧ win1_17.index t (0 : Fin 2) = t.val
    ∧ win1_17.index t (1 : Fin 2) = 0 :=
  (by decide +kernel : ∀ t : Fin grid1.N, _)

theorem t_lt (t : Fin cfg1.N) : t.val < 10 := Nat.lt_of_lt_of_eq t.isLt N_1

/-- Row `r` of point `t`'s block is row `1000·t + r` of the array. -/
def rowOf (t : Fin cfg1.N) : Fin 1000 → Fin 10000 :=
  fun r => ⟨t.val * 1000 + r.val, by have := t_lt t; have := r.isLt; omega⟩

variable (V : (c : Dev nD) → (b : Ref sig .tc) → Buf (Elt Ideal) ((c : Thread nD τ).loc b))

theorem blk0 (c : Dev nD) (t : Fin cfg1.N) : iblk1 V c 0 t = rowsAt (rowOf t) (V c main_arg1) := by
  obtain ⟨e0, e1, -⟩ := idx_facts t
  funext y
  show V c main_arg1 (((cfg1.win 0).blk t).view.emb y) = V c main_arg1 (ix2 (rowOf t (y 0)) (y 1))
  refine congrArg (V c main_arg1) (funext fun a => Fin.ext ?_)
  match a with
  | ⟨0, _⟩ => show win1_0.index t (0 : Fin 2) * 1000 + 1 * (y 0).val = t.val * 1000 + (y 0).val; omega
  | ⟨1, _⟩ => show win1_0.index t (1 : Fin 2) * 128 + 1 * (y 1).val = (y 1).val; omega

theorem blk1 (c : Dev nD) (t : Fin cfg1.N) : iblk1 V c 1 t = rowsAt (rowOf t) (V c main_arg0) := by
  obtain ⟨-, -, e0, e1, -⟩ := idx_facts t
  funext y
  show V c main_arg0 (((cfg1.win 1).blk t).view.emb y) = V c main_arg0 (ix2 (rowOf t (y 0)) (y 1))
  refine congrArg (V c main_arg0) (funext fun a => Fin.ext ?_)
  match a with
  | ⟨0, _⟩ => show win1_1.index t (0 : Fin 2) * 1000 + 1 * (y 0).val = t.val * 1000 + (y 0).val; omega
  | ⟨1, _⟩ => show win1_1.index t (1 : Fin 2) * 128 + 1 * (y 1).val = (y 1).val; omega

theorem blk2 (c : Dev nD) (t : Fin cfg1.N) : iblk1 V c 2 t = rowsAt (rowOf t) (V c main_v20) := by
  obtain ⟨-, -, -, -, e0, e1, -⟩ := idx_facts t
  funext y
  show V c main_v20 (((cfg1.win 2).blk t).view.emb y) = V c main_v20 (ix2 (rowOf t (y 0)) (y 1))
  refine congrArg (V c main_v20) (funext fun a => Fin.ext ?_)
  match a with
  | ⟨0, _⟩ => show win1_2.index t (0 : Fin 2) * 1000 + 1 * (y 0).val = t.val * 1000 + (y 0).val; omega
  | ⟨1, _⟩ => show win1_2.index t (1 : Fin 2) * 128 + 1 * (y 1).val = (y 1).val; omega

theorem blk3 (c : Dev nD) (t : Fin cfg1.N) : iblk1 V c 3 t = rowsAt (rowOf t) (V c main_v21) := by
  obtain ⟨-, -, -, -, -, -, e0, e1, -⟩ := idx_facts t
  funext y
  show V c main_v21 (((cfg1.win 3).blk t).view.emb y) = V c main_v21 (ix2 (rowOf t (y 0)) (y 1))
  refine congrArg (V c main_v21) (funext fun a => Fin.ext ?_)
  match a with
  | ⟨0, _⟩ => show win1_3.index t (0 : Fin 2) * 1000 + 1 * (y 0).val = t.val * 1000 + (y 0).val; omega
  | ⟨1, _⟩ => show win1_3.index t (1 : Fin 2) * 128 + 1 * (y 1).val = (y 1).val; omega

theorem blk4 (c : Dev nD) (t : Fin cfg1.N) : iblk1 V c 4 t = rowsAt (rowOf t) (V c main_v22) := by
  obtain ⟨-, -, -, -, -, -, -, -, e0, e1, -⟩ := idx_facts t
  funext y
  show V c main_v22 (((cfg1.win 4).blk t).view.emb y) = V c main_v22 (ix2 (rowOf t (y 0)) (y 1))
  refine congrArg (V c main_v22) (funext fun a => Fin.ext ?_)
  match a with
  | ⟨0, _⟩ => show win1_4.index t (0 : Fin 2) * 1000 + 1 * (y 0).val = t.val * 1000 + (y 0).val; omega
  | ⟨1, _⟩ => show win1_4.index t (1 : Fin 2) * 128 + 1 * (y 1).val = (y 1).val; omega

theorem blk5 (c : Dev nD) (t : Fin cfg1.N) : iblk1 V c 5 t = V c main_v23 := by
  obtain ⟨-, -, -, -, -, -, -, -, -, -, e0, e1, -⟩ := idx_facts t
  funext y
  show V c main_v23 (((cfg1.win 5).blk t).view.emb y) = V c main_v23 y
  refine congrArg (V c main_v23) (funext fun a => Fin.ext ?_)
  match a with
  | ⟨0, _⟩ => show win1_5.index t (0 : Fin 2) * 128 + 1 * (y 0).val = (y 0).val; omega
  | ⟨1, _⟩ => show win1_5.index t (1 : Fin 2) * 512 + 1 * (y 1).val = (y 1).val; omega

theorem blk6 (c : Dev nD) (t : Fin cfg1.N) : iblk1 V c 6 t = V c main_v24 := by
  obtain ⟨-, -, -, -, -, -, -, -, -, -, -, -, e0, e1, -⟩ := idx_facts t
  funext y
  show V c main_v24 (((cfg1.win 6).blk t).view.emb y) = V c main_v24 y
  refine congrArg (V c main_v24) (funext fun a => Fin.ext ?_)
  match a with
  | ⟨0, _⟩ => show win1_6.index t (0 : Fin 2) * 128 + 1 * (y 0).val = (y 0).val; omega
  | ⟨1, _⟩ => show win1_6.index t (1 : Fin 2) * 512 + 1 * (y 1).val = (y 1).val; omega

theorem blk7 (c : Dev nD) (t : Fin cfg1.N) : iblk1 V c 7 t = V c main_v25 := by
  obtain ⟨-, -, -, -, -, -, -, -, -, -, -, -, -, -, e0, e1, -⟩ := idx_facts t
  funext y
  show V c main_v25 (((cfg1.win 7).blk t).view.emb y) = V c main_v25 y
  refine congrArg (V c main_v25) (funext fun a => Fin.ext ?_)
  match a with
  | ⟨0, _⟩ => show win1_7.index t (0 : Fin 2) * 128 + 1 * (y 0).val = (y 0).val; omega
  | ⟨1, _⟩ => show win1_7.index t (1 : Fin 2) * 512 + 1 * (y 1).val = (y 1).val; omega

theorem blk8 (c : Dev nD) (t : Fin cfg1.N) : iblk1 V c 8 t = V c main_arg11 := by
  obtain ⟨-, -, -, -, -, -, -, -, -, -, -, -, -, -, -, -, e0, e1, -⟩ := idx_facts t
  funext y
  show V c main_arg11 (((cfg1.win 8).blk t).view.emb y) = V c main_arg11 y
  refine congrArg (V c main_arg11) (funext fun a => Fin.ext ?_)
  match a with
  | ⟨0, _⟩ => show win1_8.index t (0 : Fin 2) * 128 + 1 * (y 0).val = (y 0).val; omega
  | ⟨1, _⟩ => show win1_8.index t (1 : Fin 2) * 512 + 1 * (y 1).val = (y 1).val; omega

theorem blk9 (c : Dev nD) (t : Fin cfg1.N) : iblk1 V c 9 t = V c main_arg12 := by
  obtain ⟨-, -, -, -, -, -, -, -, -, -, -, -, -, -, -, -, -, -, e0, -⟩ := idx_facts t
  funext y
  show V c main_arg12 (((cfg1.win 9).blk t).view.emb y) = V c main_arg12 y
  refine congrArg (V c main_arg12) (funext fun a => Fin.ext ?_)
  match a with
  | ⟨0, _⟩ => show win1_9.index t (0 : Fin 1) * 512 + 1 * (y 0).val = (y 0).val; omega

theorem blk10 (c : Dev nD) (t : Fin cfg1.N) : iblk1 V c 10 t = V c main_arg13 := by
  obtain ⟨-, -, -, -, -, -, -, -, -, -, -, -, -, -, -, -, -, -, -, e0, -⟩ := idx_facts t
  funext y
  show V c main_arg13 (((cfg1.win 10).blk t).view.emb y) = V c main_arg13 y
  refine congrArg (V c main_arg13) (funext fun a => Fin.ext ?_)
  match a with
  | ⟨0, _⟩ => show win1_10.index t (0 : Fin 1) * 512 + 1 * (y 0).val = (y 0).val; omega

theorem blk11 (c : Dev nD) (t : Fin cfg1.N) : iblk1 V c 11 t = V c main_arg14 := by
  obtain ⟨-, -, -, -, -, -, -, -, -, -, -, -, -, -, -, -, -, -, -, -, e0, e1, -⟩ := idx_facts t
  funext y
  show V c main_arg14 (((cfg1.win 11).blk t).view.emb y) = V c main_arg14 y
  refine congrArg (V c main_arg14) (funext fun a => Fin.ext ?_)
  match a with
  | ⟨0, _⟩ => show win1_11.index t (0 : Fin 2) * 128 + 1 * (y 0).val = (y 0).val; omega
  | ⟨1, _⟩ => show win1_11.index t (1 : Fin 2) * 128 + 1 * (y 1).val = (y 1).val; omega

theorem blk12 (c : Dev nD) (t : Fin cfg1.N) : iblk1 V c 12 t = V c main_arg15 := by
  obtain ⟨-, -, -, -, -, -, -, -, -, -, -, -, -, -, -, -, -, -, -, -, -, -, e0, -⟩ := idx_facts t
  funext y
  show V c main_arg15 (((cfg1.win 12).blk t).view.emb y) = V c main_arg15 y
  refine congrArg (V c main_arg15) (funext fun a => Fin.ext ?_)
  match a with
  | ⟨0, _⟩ => show win1_12.index t (0 : Fin 1) * 128 + 1 * (y 0).val = (y 0).val; omega

theorem blk13 (c : Dev nD) (t : Fin cfg1.N) : iblk1 V c 13 t = V c main_arg16 := by
  obtain ⟨-, -, -, -, -, -, -, -, -, -, -, -, -, -, -, -, -, -, -, -, -, -, -, e0, e1, -⟩ := idx_facts t
  funext y
  show V c main_arg16 (((cfg1.win 13).blk t).view.emb y) = V c main_arg16 y
  refine congrArg (V c main_arg16) (funext fun a => Fin.ext ?_)
  match a with
  | ⟨0, _⟩ => show win1_13.index t (0 : Fin 2) * 128 + 1 * (y 0).val = (y 0).val; omega
  | ⟨1, _⟩ => show win1_13.index t (1 : Fin 2) * 64 + 1 * (y 1).val = (y 1).val; omega

theorem blk14 (c : Dev nD) (t : Fin cfg1.N) : iblk1 V c 14 t = V c main_arg17 := by
  obtain ⟨-, -, -, -, -, -, -, -, -, -, -, -, -, -, -, -, -, -, -, -, -, -, -, -, -, e0, -⟩ := idx_facts t
  funext y
  show V c main_arg17 (((cfg1.win 14).blk t).view.emb y) = V c main_arg17 y
  refine congrArg (V c main_arg17) (funext fun a => Fin.ext ?_)
  match a with
  | ⟨0, _⟩ => show win1_14.index t (0 : Fin 1) * 64 + 1 * (y 0).val = (y 0).val; omega

/-! ## From the blocks to the arrays -/

/-- The gates of all nodes, from the whole arrays the region finds. -/
def gatesOf (c : Dev nD) : (Mat 10000 512).Idx → EReal :=
  gates (N := 10000) (V c main_arg1) (V c main_arg0) (V c main_v20) (V c main_v21) (V c main_v23) (V c main_v24) (V c main_v25)
    (V c main_arg11) (V c main_arg12) (V c main_arg13)

/-- The new cell rows of all nodes. -/
def cellOf (c : Dev nD) : S10000x128.Idx → EReal := cNew (gatesOf V c) (V c main_v22)
/-- The new state rows of all nodes. -/
def stateOf (c : Dev nD) : S10000x128.Idx → EReal := hNew (gatesOf V c) (V c main_v22)
/-- The output rows of all nodes. -/
def outOf (c : Dev nD) : S10000x64.Idx → EReal :=
  outMlp (stateOf V c) (V c main_arg14) (V c main_arg15) (V c main_arg16) (V c main_arg17)

/-- What point `t` writes back through output window 15 is block `t` of `outOf`. -/
theorem flushed15_eq (c : Dev nD) (t : Fin cfg1.N) :
    (dat1 V c).flushed 15 t = ((cfg1.win 15).blk t).view.read (Elt Ideal) (outOf V c) := by
  show (cfg1.win 15).cut (grid1.coords t) ((dat1 V c).after 15 t) = _
  rw [after1_15]
  unfold out1_15
  rw [View.canon_unit_zero hz2]
  simp only [View.ld_unit_zero (S := S1000x128) hz2, View.ld_unit_zero (S := S128x512) hz2, View.ld_unit_zero (S := S512) hz1,
    View.ld_unit_zero (S := S128x128) hz2, View.ld_unit_zero (S := S128) hz1, View.ld_unit_zero (S := S128x64) hz2,
    View.ld_unit_zero (S := S64) hz1]
  rw [pay5_eq, pay4_eq, pay3_eq]
  rw [blk0 V c t, blk1 V c t, blk2 V c t, blk3 V c t, blk4 V c t, blk5 V c t, blk6 V c t, blk7 V c t, blk8 V c t, blk9 V c t,
    blk10 V c t, blk11 V c t, blk12 V c t, blk13 V c t, blk14 V c t]
  rw [gates_rowsAt, hNew_rowsAt, outMlp_rowsAt]
  obtain ⟨-, -, -, -, -, -, -, -, -, -, -, -, -, -, -, -, -, -, -, -, -, -, -, -, -, -, e0, e1, -⟩ := idx_facts t
  funext y
  show outOf V c (ix2 (rowOf t (y 0)) (y 1)) = outOf V c (((cfg1.win 15).blk t).view.emb y)
  refine congrArg (outOf V c) (funext fun a => Fin.ext ?_)
  match a with
  | ⟨0, _⟩ => show t.val * 1000 + (y 0).val = win1_15.index t (0 : Fin 2) * 1000 + 1 * (y 0).val; omega
  | ⟨1, _⟩ => show (y 1).val = win1_15.index t (1 : Fin 2) * 64 + 1 * (y 1).val; omega

theorem mem_blk15 (t : Fin cfg1.N) (i : S10000x64.Idx) :
    i ∈ ((cfg1.win 15).blk t).view.set ↔ ∀ a : Fin 2, win1_15.index t a * S1000x64.size a ≤ (i a).val ∧ (i a).val < win1_15.index t a * S1000x64.size a + S1000x64.size a := by
  show i ∈ ((View.whole main_v26_0).slice (win1_15.rect t)).set ↔ _
  rw [View.set_slice_whole, Rect.mem_set_unit]
  exact Iff.rfl

theorem cover15 (i : S10000x64.Idx) : ∃ t : Fin cfg1.N, (cfg1.win 15).flush t = true ∧ i ∈ ((cfg1.win 15).blk t).view.set := by
  have hi0 : (i 0).val < 10000 := (i 0).isLt
  have hi1 : (i 1).val < 64 := (i 1).isLt
  refine ⟨⟨(i 0).val / 1000, by rw [show cfg1.N = 10 from N_1]; omega⟩, flush1_15 _, ?_⟩
  rw [mem_blk15]
  obtain ⟨-, -, -, -, -, -, -, -, -, -, -, -, -, -, -, -, -, -, -, -, -, -, -, -, -, -, e0, e1, -⟩ := idx_facts ⟨(i 0).val / 1000, by rw [show cfg1.N = 10 from N_1]; omega⟩
  intro a
  match a with
  | ⟨0, _⟩ =>
    show win1_15.index _ (0 : Fin 2) * 1000 ≤ (i 0).val ∧ (i 0).val < win1_15.index _ (0 : Fin 2) * 1000 + 1000
    rw [e0]; show (i 0).val / 1000 * 1000 ≤ (i 0).val ∧ (i 0).val < (i 0).val / 1000 * 1000 + 1000; omega
  | ⟨1, _⟩ =>
    show win1_15.index _ (1 : Fin 2) * 64 ≤ (i 1).val ∧ (i 1).val < win1_15.index _ (1 : Fin 2) * 64 + 64
    rw [e1]; omega

/-- After the grid the array of output window 15 is `outOf` of the whole arrays the region found. -/
theorem final15 (c : Dev nD) : (dat1 V c).arrAt 15 cfg1.N = outOf V c :=
  (dat1 V c).arrAt_eq_of_cover 15 (outOf V c) (fun t _ => flushed15_eq V c t) (cover15)

/-- What point `t` writes back through output window 16 is block `t` of `stateOf`. -/
theorem flushed16_eq (c : Dev nD) (t : Fin cfg1.N) :
    (dat1 V c).flushed 16 t = ((cfg1.win 16).blk t).view.read (Elt Ideal) (stateOf V c) := by
  show (cfg1.win 16).cut (grid1.coords t) ((dat1 V c).after 16 t) = _
  rw [after1_16]
  unfold out1_16
  rw [View.canon_unit_zero hz2]
  simp only [View.ld_unit_zero (S := S1000x128) hz2, View.ld_unit_zero (S := S128x512) hz2, View.ld_unit_zero (S := S512) hz1,
    View.ld_unit_zero (S := S128x128) hz2, View.ld_unit_zero (S := S128) hz1, View.ld_unit_zero (S := S128x64) hz2,
    View.ld_unit_zero (S := S64) hz1]
  rw [pay5_eq, pay4_eq, pay2_eq]
  rw [blk0 V c t, blk1 V c t, blk2 V c t, blk3 V c t, blk4 V c t, blk5 V c t, blk6 V c t, blk7 V c t, blk8 V c t, blk9 V c t,
    blk10 V c t]
  rw [gates_rowsAt, hNew_rowsAt]
  obtain ⟨-, -, -, -, -, -, -, -, -, -, -, -, -, -, -, -, -, -, -, -, -, -, -, -, -, -, -, -, e0, e1, -⟩ := idx_facts t
  funext y
  show stateOf V c (ix2 (rowOf t (y 0)) (y 1)) = stateOf V c (((cfg1.win 16).blk t).view.emb y)
  refine congrArg (stateOf V c) (funext fun a => Fin.ext ?_)
  match a with
  | ⟨0, _⟩ => show t.val * 1000 + (y 0).val = win1_16.index t (0 : Fin 2) * 1000 + 1 * (y 0).val; omega
  | ⟨1, _⟩ => show (y 1).val = win1_16.index t (1 : Fin 2) * 128 + 1 * (y 1).val; omega

theorem mem_blk16 (t : Fin cfg1.N) (i : S10000x128.Idx) :
    i ∈ ((cfg1.win 16).blk t).view.set ↔ ∀ a : Fin 2, win1_16.index t a * S1000x128.size a ≤ (i a).val ∧ (i a).val < win1_16.index t a * S1000x128.size a + S1000x128.size a := by
  show i ∈ ((View.whole main_v26_1).slice (win1_16.rect t)).set ↔ _
  rw [View.set_slice_whole, Rect.mem_set_unit]
  exact Iff.rfl

theorem cover16 (i : S10000x128.Idx) : ∃ t : Fin cfg1.N, (cfg1.win 16).flush t = true ∧ i ∈ ((cfg1.win 16).blk t).view.set := by
  have hi0 : (i 0).val < 10000 := (i 0).isLt
  have hi1 : (i 1).val < 128 := (i 1).isLt
  refine ⟨⟨(i 0).val / 1000, by rw [show cfg1.N = 10 from N_1]; omega⟩, flush1_16 _, ?_⟩
  rw [mem_blk16]
  obtain ⟨-, -, -, -, -, -, -, -, -, -, -, -, -, -, -, -, -, -, -, -, -, -, -, -, -, -, -, -, e0, e1, -⟩ := idx_facts ⟨(i 0).val / 1000, by rw [show cfg1.N = 10 from N_1]; omega⟩
  intro a
  match a with
  | ⟨0, _⟩ =>
    show win1_16.index _ (0 : Fin 2) * 1000 ≤ (i 0).val ∧ (i 0).val < win1_16.index _ (0 : Fin 2) * 1000 + 1000
    rw [e0]; show (i 0).val / 1000 * 1000 ≤ (i 0).val ∧ (i 0).val < (i 0).val / 1000 * 1000 + 1000; omega
  | ⟨1, _⟩ =>
    show win1_16.index _ (1 : Fin 2) * 128 ≤ (i 1).val ∧ (i 1).val < win1_16.index _ (1 : Fin 2) * 128 + 128
    rw [e1]; omega

/-- After the grid the array of output window 16 is `stateOf` of the whole arrays the region found. -/
theorem final16 (c : Dev nD) : (dat1 V c).arrAt 16 cfg1.N = stateOf V c :=
  (dat1 V c).arrAt_eq_of_cover 16 (stateOf V c) (fun t _ => flushed16_eq V c t) (cover16)

/-- What point `t` writes back through output window 17 is block `t` of `cellOf`. -/
theorem flushed17_eq (c : Dev nD) (t : Fin cfg1.N) :
    (dat1 V c).flushed 17 t = ((cfg1.win 17).blk t).view.read (Elt Ideal) (cellOf V c) := by
  show (cfg1.win 17).cut (grid1.coords t) ((dat1 V c).after 17 t) = _
  rw [after1_17]
  unfold out1_17
  rw [View.canon_unit_zero hz2]
  simp only [View.ld_unit_zero (S := S1000x128) hz2, View.ld_unit_zero (S := S128x512) hz2, View.ld_unit_zero (S := S512) hz1,
    View.ld_unit_zero (S := S128x128) hz2, View.ld_unit_zero (S := S128) hz1, View.ld_unit_zero (S := S128x64) hz2,
    View.ld_unit_zero (S := S64) hz1]
  rw [pay5_eq, pay4_eq, pay1_eq]
  rw [blk0 V c t, blk1 V c t, blk2 V c t, blk3 V c t, blk4 V c t, blk5 V c t, blk6 V c t, blk7 V c t, blk8 V c t, blk9 V c t,
    blk10 V c t]
  rw [gates_rowsAt, cNew_rowsAt]
  obtain ⟨-, -, -, -, -, -, -, -, -, -, -, -, -, -, -, -, -, -, -, -, -, -, -, -, -, -, -, -, -, -, e0, e1⟩ := idx_facts t
  funext y
  show cellOf V c (ix2 (rowOf t (y 0)) (y 1)) = cellOf V c (((cfg1.win 17).blk t).view.emb y)
  refine congrArg (cellOf V c) (funext fun a => Fin.ext ?_)
  match a with
  | ⟨0, _⟩ => show t.val * 1000 + (y 0).val = win1_17.index t (0 : Fin 2) * 1000 + 1 * (y 0).val; omega
  | ⟨1, _⟩ => show (y 1).val = win1_17.index t (1 : Fin 2) * 128 + 1 * (y 1).val; omega

theorem mem_blk17 (t : Fin cfg1.N) (i : S10000x128.Idx) :
    i ∈ ((cfg1.win 17).blk t).view.set ↔ ∀ a : Fin 2, win1_17.index t a * S1000x128.size a ≤ (i a).val ∧ (i a).val < win1_17.index t a * S1000x128.size a + S1000x128.size a := by
  show i ∈ ((View.whole main_v26_2).slice (win1_17.rect t)).set ↔ _
  rw [View.set_slice_whole, Rect.mem_set_unit]
  exact Iff.rfl

theorem cover17 (i : S10000x128.Idx) : ∃ t : Fin cfg1.N, (cfg1.win 17).flush t = true ∧ i ∈ ((cfg1.win 17).blk t).view.set := by
  have hi0 : (i 0).val < 10000 := (i 0).isLt
  have hi1 : (i 1).val < 128 := (i 1).isLt
  refine ⟨⟨(i 0).val / 1000, by rw [show cfg1.N = 10 from N_1]; omega⟩, flush1_17 _, ?_⟩
  rw [mem_blk17]
  obtain ⟨-, -, -, -, -, -, -, -, -, -, -, -, -, -, -, -, -, -, -, -, -, -, -, -, -, -, -, -, -, -, e0, e1⟩ := idx_facts ⟨(i 0).val / 1000, by rw [show cfg1.N = 10 from N_1]; omega⟩
  intro a
  match a with
  | ⟨0, _⟩ =>
    show win1_17.index _ (0 : Fin 2) * 1000 ≤ (i 0).val ∧ (i 0).val < win1_17.index _ (0 : Fin 2) * 1000 + 1000
    rw [e0]; show (i 0).val / 1000 * 1000 ≤ (i 0).val ∧ (i 0).val < (i 0).val / 1000 * 1000 + 1000; omega
  | ⟨1, _⟩ =>
    show win1_17.index _ (1 : Fin 2) * 128 ≤ (i 1).val ∧ (i 1).val < win1_17.index _ (1 : Fin 2) * 128 + 128
    rw [e1]; omega

/-- After the grid the array of output window 17 is `cellOf` of the whole arrays the region found. -/
theorem final17 (c : Dev nD) : (dat1 V c).arrAt 17 cfg1.N = cellOf V c :=
  (dat1 V c).arrAt_eq_of_cover 17 (cellOf V c) (fun t _ => flushed17_eq V c t) (cover17)

end Cert.KernelIdeal.Node

end
-- ==== Proof.KHost.lean ====
/-
  The idealized kernel's three results as functions of its arguments.

  Before the edge kernel the host gathers the state rows of every edge's two endpoints (after wrapping negative
  node numbers) and cuts the first edge weight into its two row halves; between the kernels it sums the messages per
  destination node, drops the unit axis of the old state and cell, and cuts the gate weight into its three row
  blocks; after the node kernel it puts the unit axis back on the new state and cell. Each buffer the two kernels
  read is followed back through these operations to the launch memory, the kernels' output arrays are the
  row-by-row functions of the arrays they found, and so each result is one composed function of the arguments — with the
  gather and the per-node summation left as the host operations they are.
-/
import proofs.«117058_j55439437856890_2_alg».proof.Proof.KRun
import proofs.«117058_j55439437856890_2_alg».proof.Proof.Region0
import proofs.«117058_j55439437856890_2_alg».proof.Proof.Region1
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo
open Cert.Linear Cert.Gnn

/-! ## The host's own operations, named -/

/-- Node numbers with the negative ones wrapped by the node count, as a column. -/
def wrapIdx (x : (⟨S320000, .i32⟩ : BufTy).Contents (Elt Ideal)) : (⟨S320000x1, .i32⟩ : BufTy).Contents (Elt Ideal) :=
  broadcastInDim S320000x1 ![0] bcast_S320000_S320000x1_0
    (select (cmpi .slt x (broadcastInDim S320000 ![] bcast_S_S320000 (constantI S_ 32 0#32)))
      (addi x (broadcastInDim S320000 ![] bcast_S_S320000 (constantI S_ 32 10000#32))) x)

/-- The state rows of the edges' endpoints `x`. -/
def gatherAt (hs : (⟨S10000x128, .f32⟩ : BufTy).Contents (Elt Ideal)) (x : (⟨S320000, .i32⟩ : BufTy).Contents (Elt Ideal)) :
    (⟨S320000x128, .bf16⟩ : BufTy).Contents (Elt Ideal) :=
  Host.gather gather_S10000x128_S320000x1_S320000x128_1_0_n_n_0_1_1128
    (truncf (F := Ideal) (s := S10000x128) (φ := .f32) .bf16 hs bitsLt_bf16_f32) (wrapIdx x)

/-- The messages summed per destination node. -/
def sumAt (dst : (⟨S320000, .i32⟩ : BufTy).Contents (Elt Ideal)) (msg : (⟨S320000x128, .f32⟩ : BufTy).Contents (Elt Ideal)) :
    (⟨S10000x128, .f32⟩ : BufTy).Contents (Elt Ideal) :=
  Host.scatterAdd scatter_S10000x128_S320000x1_S320000x128_1_0_0_1
    (broadcastInDim S10000x128 ![] bcast_S_S10000x128 (constant (F := Ideal) S_ .f32 0x00000000#32))
    (broadcastInDim S320000x1 ![0] bcast_S320000_S320000x1_0 dst) msg

variable (m : (ℓ : Loc nD τ sig) → Buf (Elt Ideal) ℓ) (ρ : Dev nD → PrngReg) (c : Dev nD)

/-- An argument's array at launch. -/
abbrev arg (b : Ref sig .tc) : Buf (Elt Ideal) ((c : Thread nD τ).loc b) := m ((c : Thread nD τ).loc b)

/-! ## Before the edge kernel -/

theorem W1_arg0 : W1 m ρ c (Proc.devRef .tc main_arg0) = m ((c : Thread nD τ).loc main_arg0) := by
  show StableHlo.after hostOps0 (W0 m ρ c) (Proc.devRef .tc main_arg0) = _
  after_results_simp
  all_goals rfl
theorem W1_arg1 : W1 m ρ c (Proc.devRef .tc main_arg1) = m ((c : Thread nD τ).loc main_arg1) := by
  show StableHlo.after hostOps0 (W0 m ρ c) (Proc.devRef .tc main_arg1) = _
  after_results_simp
  all_goals rfl
theorem W1_arg2 : W1 m ρ c (Proc.devRef .tc main_arg2) = m ((c : Thread nD τ).loc main_arg2) := by
  show StableHlo.after hostOps0 (W0 m ρ c) (Proc.devRef .tc main_arg2) = _
  after_results_simp
  all_goals rfl
theorem W1_arg3 : W1 m ρ c (Proc.devRef .tc main_arg3) = m ((c : Thread nD τ).loc main_arg3) := by
  show StableHlo.after hostOps0 (W0 m ρ c) (Proc.devRef .tc main_arg3) = _
  after_results_simp
  all_goals rfl
theorem W1_arg4 : W1 m ρ c (Proc.devRef .tc main_arg4) = m ((c : Thread nD τ).loc main_arg4) := by
  show StableHlo.after hostOps0 (W0 m ρ c) (Proc.devRef .tc main_arg4) = _
  after_results_simp
  all_goals rfl
theorem W1_arg5 : W1 m ρ c (Proc.devRef .tc main_arg5) = m ((c : Thread nD τ).loc main_arg5) := by
  show StableHlo.after hostOps0 (W0 m ρ c) (Proc.devRef .tc main_arg5) = _
  after_results_simp
  all_goals rfl
theorem W1_arg6 : W1 m ρ c (Proc.devRef .tc main_arg6) = m ((c : Thread nD τ).loc main_arg6) := by
  show StableHlo.after hostOps0 (W0 m ρ c) (Proc.devRef .tc main_arg6) = _
  after_results_simp
  all_goals rfl
theorem W1_arg7 : W1 m ρ c (Proc.devRef .tc main_arg7) = m ((c : Thread nD τ).loc main_arg7) := by
  show StableHlo.after hostOps0 (W0 m ρ c) (Proc.devRef .tc main_arg7) = _
  after_results_simp
  all_goals rfl
theorem W1_arg8 : W1 m ρ c (Proc.devRef .tc main_arg8) = m ((c : Thread nD τ).loc main_arg8) := by
  show StableHlo.after hostOps0 (W0 m ρ c) (Proc.devRef .tc main_arg8) = _
  after_results_simp
  all_goals rfl
theorem W1_arg9 : W1 m ρ c (Proc.devRef .tc main_arg9) = m ((c : Thread nD τ).loc main_arg9) := by
  show StableHlo.after hostOps0 (W0 m ρ c) (Proc.devRef .tc main_arg9) = _
  after_results_simp
  all_goals rfl
theorem W1_arg10 : W1 m ρ c (Proc.devRef .tc main_arg10) = m ((c : Thread nD τ).loc main_arg10) := by
  show StableHlo.after hostOps0 (W0 m ρ c) (Proc.devRef .tc main_arg10) = _
  after_results_simp
  all_goals rfl
theorem W1_arg11 : W1 m ρ c (Proc.devRef .tc main_arg11) = m ((c : Thread nD τ).loc main_arg11) := by
  show StableHlo.after hostOps0 (W0 m ρ c) (Proc.devRef .tc main_arg11) = _
  after_results_simp
  all_goals rfl
theorem W1_arg12 : W1 m ρ c (Proc.devRef .tc main_arg12) = m ((c : Thread nD τ).loc main_arg12) := by
  show StableHlo.after hostOps0 (W0 m ρ c) (Proc.devRef .tc main_arg12) = _
  after_results_simp
  all_goals rfl
theorem W1_arg13 : W1 m ρ c (Proc.devRef .tc main_arg13) = m ((c : Thread nD τ).loc main_arg13) := by
  show StableHlo.after hostOps0 (W0 m ρ c) (Proc.devRef .tc main_arg13) = _
  after_results_simp
  all_goals rfl
theorem W1_arg14 : W1 m ρ c (Proc.devRef .tc main_arg14) = m ((c : Thread nD τ).loc main_arg14) := by
  show StableHlo.after hostOps0 (W0 m ρ c) (Proc.devRef .tc main_arg14) = _
  after_results_simp
  all_goals rfl
theorem W1_arg15 : W1 m ρ c (Proc.devRef .tc main_arg15) = m ((c : Thread nD τ).loc main_arg15) := by
  show StableHlo.after hostOps0 (W0 m ρ c) (Proc.devRef .tc main_arg15) = _
  after_results_simp
  all_goals rfl
theorem W1_arg16 : W1 m ρ c (Proc.devRef .tc main_arg16) = m ((c : Thread nD τ).loc main_arg16) := by
  show StableHlo.after hostOps0 (W0 m ρ c) (Proc.devRef .tc main_arg16) = _
  after_results_simp
  all_goals rfl
theorem W1_arg17 : W1 m ρ c (Proc.devRef .tc main_arg17) = m ((c : Thread nD τ).loc main_arg17) := by
  show StableHlo.after hostOps0 (W0 m ρ c) (Proc.devRef .tc main_arg17) = _
  after_results_simp
  all_goals rfl

theorem W1_v7 : W1 m ρ c (Proc.devRef .tc main_v7) = gatherAt (arg m c main_arg1) (arg m c main_arg4) := by
  show StableHlo.after hostOps0 (W0 m ρ c) (Proc.devRef .tc main_v7) = _
  after_results_simp
  all_goals rfl

theorem W1_v14 : W1 m ρ c (Proc.devRef .tc main_v14) = gatherAt (arg m c main_arg1) (arg m c main_arg5) := by
  show StableHlo.after hostOps0 (W0 m ρ c) (Proc.devRef .tc main_v14) = _
  after_results_simp
  all_goals rfl

theorem W1_v15 : W1 m ρ c (Proc.devRef .tc main_v15) = rowBlock 128 0 (by omega) (arg m c main_arg6) := by
  show StableHlo.after hostOps0 (W0 m ρ c) (Proc.devRef .tc main_v15) = _
  after_results_simp
  exact slice_rows 0 _ _ _

theorem W1_v16 : W1 m ρ c (Proc.devRef .tc main_v16) = rowBlock 128 128 (by omega) (arg m c main_arg6) := by
  show StableHlo.after hostOps0 (W0 m ρ c) (Proc.devRef .tc main_v16) = _
  after_results_simp
  exact slice_rows 128 _ _ _

/-! ## The message array after the edge kernel -/

/-- The message function of the arguments. -/
def msg : S320000x128.Idx → EReal :=
  edgeMsg (E := 320000) (gatherAt (arg m c main_arg1) (arg m c main_arg4)) (gatherAt (arg m c main_arg1) (arg m c main_arg5))
    (rowBlock 128 0 (by omega) (arg m c main_arg6)) (rowBlock 128 128 (by omega) (arg m c main_arg6))
    (arg m c main_arg7) (arg m c main_arg8) (arg m c main_arg9)

theorem W2_v17 : W2 m ρ c (Proc.devRef .tc main_v17) = msg m c := by
  refine (W2_arr m ρ c 7).trans ((Edge.final (V1 m ρ) c).trans ?_)
  unfold Edge.msgOf msg
  rw [show V1 m ρ c main_v7 = _ from W1_v7 m ρ c, show V1 m ρ c main_v14 = _ from W1_v14 m ρ c,
    show V1 m ρ c main_v15 = _ from W1_v15 m ρ c, show V1 m ρ c main_v16 = _ from W1_v16 m ρ c,
    show V1 m ρ c main_arg7 = _ from W1_arg7 m ρ c, show V1 m ρ c main_arg8 = _ from W1_arg8 m ρ c,
    show V1 m ρ c main_arg9 = _ from W1_arg9 m ρ c]

theorem W2_arg0 : W2 m ρ c (Proc.devRef .tc main_arg0) = m ((c : Thread nD τ).loc main_arg0) :=
  (W2_of_ne m ρ c main_arg0 (by decide)).trans (W1_arg0 m ρ c)
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg5 : W2 m ρ c (Proc.devRef .tc main_arg5) = m ((c : Thread nD τ).loc main_arg5) :=
  (W2_of_ne m ρ c main_arg5 (by decide)).trans (W1_arg5 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W2_arg15 : W2 m ρ c (Proc.devRef .tc main_arg15) = m ((c : Thread nD τ).loc main_arg15) :=
  (W2_of_ne m ρ c main_arg15 (by decide)).trans (W1_arg15 m ρ c)
theorem W2_arg16 : W2 m ρ c (Proc.devRef .tc main_arg16) = m ((c : Thread nD τ).loc main_arg16) :=
  (W2_of_ne m ρ c main_arg16 (by decide)).trans (W1_arg16 m ρ c)
theorem W2_arg17 : W2 m ρ c (Proc.devRef .tc main_arg17) = m ((c : Thread nD τ).loc main_arg17) :=
  (W2_of_ne m ρ c main_arg17 (by decide)).trans (W1_arg17 m ρ c)

/-! ## Before the node kernel -/

theorem W3_arg0 : W3 m ρ c (Proc.devRef .tc main_arg0) = m ((c : Thread nD τ).loc main_arg0) := by
  refine Eq.trans ?_ (W2_arg0 m ρ c)
  show StableHlo.after hostOps1 (W2 m ρ c) (Proc.devRef .tc main_arg0) = _
  after_results_simp
  all_goals rfl
theorem W3_arg1 : W3 m ρ c (Proc.devRef .tc main_arg1) = m ((c : Thread nD τ).loc main_arg1) := by
  refine Eq.trans ?_ (W2_arg1 m ρ c)
  show StableHlo.after hostOps1 (W2 m ρ c) (Proc.devRef .tc main_arg1) = _
  after_results_simp
  all_goals rfl
theorem W3_arg11 : W3 m ρ c (Proc.devRef .tc main_arg11) = m ((c : Thread nD τ).loc main_arg11) := by
  refine Eq.trans ?_ (W2_arg11 m ρ c)
  show StableHlo.after hostOps1 (W2 m ρ c) (Proc.devRef .tc main_arg11) = _
  after_results_simp
  all_goals rfl
theorem W3_arg12 : W3 m ρ c (Proc.devRef .tc main_arg12) = m ((c : Thread nD τ).loc main_arg12) := by
  refine Eq.trans ?_ (W2_arg12 m ρ c)
  show StableHlo.after hostOps1 (W2 m ρ c) (Proc.devRef .tc main_arg12) = _
  after_results_simp
  all_goals rfl
theorem W3_arg13 : W3 m ρ c (Proc.devRef .tc main_arg13) = m ((c : Thread nD τ).loc main_arg13) := by
  refine Eq.trans ?_ (W2_arg13 m ρ c)
  show StableHlo.after hostOps1 (W2 m ρ c) (Proc.devRef .tc main_arg13) = _
  after_results_simp
  all_goals rfl
theorem W3_arg14 : W3 m ρ c (Proc.devRef .tc main_arg14) = m ((c : Thread nD τ).loc main_arg14) := by
  refine Eq.trans ?_ (W2_arg14 m ρ c)
  show StableHlo.after hostOps1 (W2 m ρ c) (Proc.devRef .tc main_arg14) = _
  after_results_simp
  all_goals rfl
theorem W3_arg15 : W3 m ρ c (Proc.devRef .tc main_arg15) = m ((c : Thread nD τ).loc main_arg15) := by
  refine Eq.trans ?_ (W2_arg15 m ρ c)
  show StableHlo.after hostOps1 (W2 m ρ c) (Proc.devRef .tc main_arg15) = _
  after_results_simp
  all_goals rfl
theorem W3_arg16 : W3 m ρ c (Proc.devRef .tc main_arg16) = m ((c : Thread nD τ).loc main_arg16) := by
  refine Eq.trans ?_ (W2_arg16 m ρ c)
  show StableHlo.after hostOps1 (W2 m ρ c) (Proc.devRef .tc main_arg16) = _
  after_results_simp
  all_goals rfl
theorem W3_arg17 : W3 m ρ c (Proc.devRef .tc main_arg17) = m ((c : Thread nD τ).loc main_arg17) := by
  refine Eq.trans ?_ (W2_arg17 m ρ c)
  show StableHlo.after hostOps1 (W2 m ρ c) (Proc.devRef .tc main_arg17) = _
  after_results_simp
  all_goals rfl

/-- The summed messages of the arguments. -/
def summed : S10000x128.Idx → EReal := sumAt (arg m c main_arg5) (msg m c)

theorem W3_v20 : W3 m ρ c (Proc.devRef .tc main_v20) = summed m c := by
  show StableHlo.after hostOps1 (W2 m ρ c) (Proc.devRef .tc main_v20) = _
  after_results_simp
  rw [W2_arg5 m ρ c, W2_v17 m ρ c]
  rfl

theorem W3_v21 : W3 m ρ c (Proc.devRef .tc main_v21) = dropUnit (arg m c main_arg2) := by
  show StableHlo.after hostOps1 (W2 m ρ c) (Proc.devRef .tc main_v21) = _
  after_results_simp
  rw [W2_arg2 m ρ c]
  exact shapeCast_dropUnit _ _

theorem W3_v22 : W3 m ρ c (Proc.devRef .tc main_v22) = dropUnit (arg m c main_arg3) := by
  show StableHlo.after hostOps1 (W2 m ρ c) (Proc.devRef .tc main_v22) = _
  after_results_simp
  rw [W2_arg3 m ρ c]
  exact shapeCast_dropUnit _ _

theorem W3_v23 : W3 m ρ c (Proc.devRef .tc main_v23) = rowBlock 128 0 (by omega) (arg m c main_arg10) := by
  show StableHlo.after hostOps1 (W2 m ρ c) (Proc.devRef .tc main_v23) = _
  after_results_simp
  rw [W2_arg10 m ρ c]
  exact slice_rows 0 _ _ _

theorem W3_v24 : W3 m ρ c (Proc.devRef .tc main_v24) = rowBlock 128 128 (by omega) (arg m c main_arg10) := by
  show StableHlo.after hostOps1 (W2 m ρ c) (Proc.devRef .tc main_v24) = _
  after_results_simp
  rw [W2_arg10 m ρ c]
  exact slice_rows 128 _ _ _

theorem W3_v25 : W3 m ρ c (Proc.devRef .tc main_v25) = rowBlock 128 256 (by omega) (arg m c main_arg10) := by
  show StableHlo.after hostOps1 (W2 m ρ c) (Proc.devRef .tc main_v25) = _
  after_results_simp
  rw [W2_arg10 m ρ c]
  exact slice_rows 256 _ _ _

/-! ## The three arrays after the node kernel -/

/-- The gates of all nodes, from the arguments. -/
def gatesW : (Mat 10000 512).Idx → EReal :=
  gates (N := 10000) (arg m c main_arg1) (arg m c main_arg0) (summed m c) (dropUnit (arg m c main_arg2))
    (rowBlock 128 0 (by omega) (arg m c main_arg10)) (rowBlock 128 128 (by omega) (arg m c main_arg10))
    (rowBlock 128 256 (by omega) (arg m c main_arg10)) (arg m c main_arg11) (arg m c main_arg12) (arg m c main_arg13)

/-- The new cell, the new state and the output rows of all nodes, from the arguments. -/
def cellW : S10000x128.Idx → EReal := cNew (gatesW m c) (dropUnit (arg m c main_arg3))
def stateW : S10000x128.Idx → EReal := hNew (gatesW m c) (dropUnit (arg m c main_arg3))
def outW : S10000x64.Idx → EReal :=
  outMlp (stateW m c) (arg m c main_arg14) (arg m c main_arg15) (arg m c main_arg16) (arg m c main_arg17)

theorem gatesOf_eq : Node.gatesOf (V3 m ρ) c = gatesW m c := by
  unfold Node.gatesOf gatesW
  rw [show V3 m ρ c main_arg1 = _ from W3_arg1 m ρ c, show V3 m ρ c main_arg0 = _ from W3_arg0 m ρ c,
    show V3 m ρ c main_v20 = _ from W3_v20 m ρ c, show V3 m ρ c main_v21 = _ from W3_v21 m ρ c,
    show V3 m ρ c main_v23 = _ from W3_v23 m ρ c, show V3 m ρ c main_v24 = _ from W3_v24 m ρ c,
    show V3 m ρ c main_v25 = _ from W3_v25 m ρ c, show V3 m ρ c main_arg11 = _ from W3_arg11 m ρ c,
    show V3 m ρ c main_arg12 = _ from W3_arg12 m ρ c, show V3 m ρ c main_arg13 = _ from W3_arg13 m ρ c]

theorem cellOf_eq : Node.cellOf (V3 m ρ) c = cellW m c := by
  unfold Node.cellOf cellW
  rw [gatesOf_eq, show V3 m ρ c main_v22 = _ from W3_v22 m ρ c]

theorem stateOf_eq : Node.stateOf (V3 m ρ) c = stateW m c := by
  unfold Node.stateOf stateW
  rw [gatesOf_eq, show V3 m ρ c main_v22 = _ from W3_v22 m ρ c]

theorem outOf_eq : Node.outOf (V3 m ρ) c = outW m c := by
  unfold Node.outOf outW
  rw [stateOf_eq, show V3 m ρ c main_arg14 = _ from W3_arg14 m ρ c, show V3 m ρ c main_arg15 = _ from W3_arg15 m ρ c,
    show V3 m ρ c main_arg16 = _ from W3_arg16 m ρ c, show V3 m ρ c main_arg17 = _ from W3_arg17 m ρ c]

/-! ## The results -/

/-- A `[10000, 128]` array with a unit axis put in front. -/
def addUnit (x : S10000x128.Idx → EReal) : S1x10000x128.Idx → EReal :=
  broadcastInDim S1x10000x128 ![1, 2] bcast_S10000x128_S1x10000x128_1_2 x

theorem W5_out : W5 m ρ c (Proc.devRef .tc main_v26_0) = outW m c := by
  refine Eq.trans ?_ ((W4_arr m ρ c 15).trans ((Node.final15 (V3 m ρ) c).trans (outOf_eq m ρ c)))
  show StableHlo.after hostOps2 (W4 m ρ c) (Proc.devRef .tc main_v26_0) = _
  after_results_simp
  all_goals rfl

theorem W5_state : W5 m ρ c (Proc.devRef .tc main_v27) = addUnit (stateW m c) := by
  show StableHlo.after hostOps2 (W4 m ρ c) (Proc.devRef .tc main_v27) = _
  after_results_simp
  rw [show W4 m ρ c (Proc.devRef .tc main_v26_1) = _ from (W4_arr m ρ c 16).trans ((Node.final16 (V3 m ρ) c).trans (stateOf_eq m ρ c))]
  rfl

theorem W5_cell : W5 m ρ c (Proc.devRef .tc main_v28) = addUnit (cellW m c) := by
  show StableHlo.after hostOps2 (W4 m ρ c) (Proc.devRef .tc main_v28) = _
  after_results_simp
  rw [show W4 m ρ c (Proc.devRef .tc main_v26_2) = _ from (W4_arr m ρ c 17).trans ((Node.final17 (V3 m ρ) c).trans (cellOf_eq m ρ c))]
  rfl

end Cert.KernelIdeal.Whole

end
-- ==== Proof.LibConcat2.lean ====
/-
  Two arrays of ONE shape laid side by side, read at an index.

  Joining `x0` and `x1` of shape `[R, C]` along the column axis gives an array of shape `[R, T]` (with `T = 2 · C`)
  whose entry at row `k` and column `n · C + j` (`n` = 0, 1 and `j < C`) is entry `(k, j)` of piece `n`. The index
  read is any index whose coordinates have those values. Each lemma is the general reading of a concatenation at the
  piece whose span holds the joined coordinate, with the extents before that piece summed: `0`, `C`.
-/
import Idealize.ShloMosaic.Lib.Pipeline.Value
import Idealize.ShloMosaic.Lib.ValueIdx

namespace Cert.Lib.Concat2

open Idealize.ShloMosaic Idealize.ShloMosaic.ValueIdx

variable {α : Type}

/-- A column in the FIRST piece's span: entry `(k, j)` of `x0`. -/
theorem cols_first {R C T : Nat} (x0 x1 : (⟨2, ![R, C]⟩ : Shape).Idx → α)
    (h : Shape.Concatenates (([⟨⟨2, ![R, C]⟩, x0⟩, ⟨⟨2, ![R, C]⟩, x1⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = j.val) :
    concatenate ⟨2, ![R, T]⟩ 1 [⟨⟨2, ![R, C]⟩, x0⟩, ⟨⟨2, ![R, C]⟩, x1⟩] h J = x0 (ix2 k j) :=
  concatenate_apply_piece 1 _ h J 0 (Nat.succ_le_succ (Nat.zero_le 1)) ⟨2, ![R, C]⟩ x0 rfl rfl 0 rfl (ix2 k j)
    (fun b hb => by
      match b with
      | ⟨0, _⟩ => exact h0.symm
      | ⟨1, _⟩ => exact absurd (Fin.ext rfl) hb)
    (by show 0 + j.val = (J 1).val; omega)

/-- A column in the SECOND piece's span: entry `(k, j)` of `x1`. -/
theorem cols_second {R C T : Nat} (x0 x1 : (⟨2, ![R, C]⟩ : Shape).Idx → α)
    (h : Shape.Concatenates (([⟨⟨2, ![R, C]⟩, x0⟩, ⟨⟨2, ![R, C]⟩, x1⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = C + j.val) :
    concatenate ⟨2, ![R, T]⟩ 1 [⟨⟨2, ![R, C]⟩, x0⟩, ⟨⟨2, ![R, C]⟩, x1⟩] h J = x1 (ix2 k j) :=
  concatenate_apply_piece 1 _ h J 1 (Nat.succ_le_succ (Nat.succ_le_succ (Nat.zero_le 0))) ⟨2, ![R, C]⟩ x1 rfl rfl C (by show C + 0 = C; omega) (ix2 k j)
    (fun b hb => by
      match b with
      | ⟨0, _⟩ => exact h0.symm
      | ⟨1, _⟩ => exact absurd (Fin.ext rfl) hb)
    (by show C + j.val = (J 1).val; omega)

end Cert.Lib.Concat2
-- ==== Proof.LibConcat3.lean ====
/-
  Three arrays of ONE shape laid side by side, read at an index.

  Joining `x0`, `x1`, `x2` of shape `[R, C]` along the column axis gives an array of shape `[R, T]` (with
  `T = 3 · C`) whose entry at row `k` and column `n · C + j` (`n` = 0, 1, 2 and `j < C`) is entry `(k, j)` of piece
  `n`; likewise three vectors of length `C` joined end to end. The index read is any index whose coordinates
  have those values, so the lemmas apply to an index however it was composed. Each is the general
  reading of a concatenation at the piece whose span holds the joined coordinate, with the extents before
  that piece summed: `0`, `C`, `C + C`.
-/
import Idealize.ShloMosaic.Lib.Pipeline.Value
import Idealize.ShloMosaic.Lib.ValueIdx

namespace Cert.Lib.Concat3

open Idealize.ShloMosaic Idealize.ShloMosaic.ValueIdx

variable {α : Type}

/-! ## Three `[R, C]` arrays joined along the columns -/

/-- A column in the FIRST piece's span: entry `(k, j)` of `x0`. -/
theorem cols_first {R C T : Nat} (x0 x1 x2 : (⟨2, ![R, C]⟩ : Shape).Idx → α)
    (h : Shape.Concatenates (([⟨⟨2, ![R, C]⟩, x0⟩, ⟨⟨2, ![R, C]⟩, x1⟩, ⟨⟨2, ![R, C]⟩, x2⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = j.val) :
    concatenate ⟨2, ![R, T]⟩ 1 [⟨⟨2, ![R, C]⟩, x0⟩, ⟨⟨2, ![R, C]⟩, x1⟩, ⟨⟨2, ![R, C]⟩, x2⟩] h J = x0 (ix2 k j) :=
  concatenate_apply_piece 1 _ h J 0 (Nat.succ_le_succ (Nat.zero_le 2)) ⟨2, ![R, C]⟩ x0 rfl rfl 0 rfl (ix2 k j)
    (fun b hb => by
      match b with
      | ⟨0, _⟩ => exact h0.symm
      | ⟨1, _⟩ => exact absurd (Fin.ext rfl) hb)
    (by show 0 + j.val = (J 1).val; omega)

/-- A column in the SECOND piece's span: entry `(k, j)` of `x1`. -/
theorem cols_second {R C T : Nat} (x0 x1 x2 : (⟨2, ![R, C]⟩ : Shape).Idx → α)
    (h : Shape.Concatenates (([⟨⟨2, ![R, C]⟩, x0⟩, ⟨⟨2, ![R, C]⟩, x1⟩, ⟨⟨2, ![R, C]⟩, x2⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = C + j.val) :
    concatenate ⟨2, ![R, T]⟩ 1 [⟨⟨2, ![R, C]⟩, x0⟩, ⟨⟨2, ![R, C]⟩, x1⟩, ⟨⟨2, ![R, C]⟩, x2⟩] h J = x1 (ix2 k j) :=
  concatenate_apply_piece 1 _ h J 1 (Nat.succ_le_succ (Nat.succ_le_succ (Nat.zero_le 1))) ⟨2, ![R, C]⟩ x1 rfl rfl C (by show C + 0 = C; omega) (ix2 k j)
    (fun b hb => by
      match b with
      | ⟨0, _⟩ => exact h0.symm
      | ⟨1, _⟩ => exact absurd (Fin.ext rfl) hb)
    (by show C + j.val = (J 1).val; omega)

/-- A column in the THIRD piece's span: entry `(k, j)` of `x2`. -/
theorem cols_third {R C T : Nat} (x0 x1 x2 : (⟨2, ![R, C]⟩ : Shape).Idx → α)
    (h : Shape.Concatenates (([⟨⟨2, ![R, C]⟩, x0⟩, ⟨⟨2, ![R, C]⟩, x1⟩, ⟨⟨2, ![R, C]⟩, x2⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = C + C + j.val) :
    concatenate ⟨2, ![R, T]⟩ 1 [⟨⟨2, ![R, C]⟩, x0⟩, ⟨⟨2, ![R, C]⟩, x1⟩, ⟨⟨2, ![R, C]⟩, x2⟩] h J = x2 (ix2 k j) :=
  concatenate_apply_piece 1 _ h J 2 (Nat.succ_le_succ (Nat.succ_le_succ (Nat.succ_le_succ (Nat.zero_le 0)))) ⟨2, ![R, C]⟩ x2 rfl rfl (C + C) (by show C + (C + 0) = C + C; omega) (ix2 k j)
    (fun b hb => by
      match b with
      | ⟨0, _⟩ => exact h0.symm
      | ⟨1, _⟩ => exact absurd (Fin.ext rfl) hb)
    (by show C + C + j.val = (J 1).val; omega)

/-! ## Three vectors of length `C` joined end to end -/

/-- A position in the FIRST vector's span. -/
theorem vec_first {C T : Nat} (x0 x1 x2 : (⟨1, ![C]⟩ : Shape).Idx → α)
    (h : Shape.Concatenates (([⟨⟨1, ![C]⟩, x0⟩, ⟨⟨1, ![C]⟩, x1⟩, ⟨⟨1, ![C]⟩, x2⟩] : List ((s : Shape) × (s.Idx → α))).map (·.1)) ⟨1, ![T]⟩ 0)
    (J : (⟨1, ![T]⟩ : Shape).Idx) (j : Fin C) (h0 : (J 0).val = j.val) :
    concatenate ⟨1, ![T]⟩ 0 [⟨⟨1, ![C]⟩, x0⟩, ⟨⟨1, ![C]⟩, x1⟩, ⟨⟨1, ![C]⟩, x2⟩] h J = x0 (ix1 j) :=
  concatenate_apply_piece 0 _ h J 0 (Nat.succ_le_succ (Nat.zero_le 2)) ⟨1, ![C]⟩ x0 rfl rfl 0 rfl (ix1 j)
    (fun b hb => by
      match b with
      | ⟨0, _⟩ => exact absurd (Fin.ext rfl) hb)
    (by show 0 + j.val = (J 0).val; omega)

/-- A position in the SECOND vector's span. -/
theorem vec_second {C T : Nat} (x0 x1 x2 : (⟨1, ![C]⟩ : Shape).Idx → α)
    (h : Shape.Concatenates (([⟨⟨1, ![C]⟩, x0⟩, ⟨⟨1, ![C]⟩, x1⟩, ⟨⟨1, ![C]⟩, x2⟩] : List ((s : Shape) × (s.Idx → α))).map (·.1)) ⟨1, ![T]⟩ 0)
    (J : (⟨1, ![T]⟩ : Shape).Idx) (j : Fin C) (h0 : (J 0).val = C + j.val) :
    concatenate ⟨1, ![T]⟩ 0 [⟨⟨1, ![C]⟩, x0⟩, ⟨⟨1, ![C]⟩, x1⟩, ⟨⟨1, ![C]⟩, x2⟩] h J = x1 (ix1 j) :=
  concatenate_apply_piece 0 _ h J 1 (Nat.succ_le_succ (Nat.succ_le_succ (Nat.zero_le 1))) ⟨1, ![C]⟩ x1 rfl rfl C (by show C + 0 = C; omega) (ix1 j)
    (fun b hb => by
      match b with
      | ⟨0, _⟩ => exact absurd (Fin.ext rfl) hb)
    (by show C + j.val = (J 0).val; omega)

/-- A position in the THIRD vector's span. -/
theorem vec_third {C T : Nat} (x0 x1 x2 : (⟨1, ![C]⟩ : Shape).Idx → α)
    (h : Shape.Concatenates (([⟨⟨1, ![C]⟩, x0⟩, ⟨⟨1, ![C]⟩, x1⟩, ⟨⟨1, ![C]⟩, x2⟩] : List ((s : Shape) × (s.Idx → α))).map (·.1)) ⟨1, ![T]⟩ 0)
    (J : (⟨1, ![T]⟩ : Shape).Idx) (j : Fin C) (h0 : (J 0).val = C + C + j.val) :
    concatenate ⟨1, ![T]⟩ 0 [⟨⟨1, ![C]⟩, x0⟩, ⟨⟨1, ![C]⟩, x1⟩, ⟨⟨1, ![C]⟩, x2⟩] h J = x2 (ix1 j) :=
  concatenate_apply_piece 0 _ h J 2 (Nat.succ_le_succ (Nat.succ_le_succ (Nat.succ_le_succ (Nat.zero_le 0)))) ⟨1, ![C]⟩ x2 rfl rfl (C + C) (by show C + (C + 0) = C + C; omega) (ix1 j)
    (fun b hb => by
      match b with
      | ⟨0, _⟩ => exact absurd (Fin.ext rfl) hb)
    (by show C + C + j.val = (J 0).val; omega)

end Cert.Lib.Concat3
-- ==== Proof.RefStages.lean ====
/-
  The reference program's three results as the same functions of its arguments.

  The reference gathers the two endpoint state rows of every edge, lays them side by side in 256 columns and
  multiplies by the whole first edge weight; it lays state, input and summed messages side by side in 384 columns and
  multiplies by the whole gate weight; it adds the two gate biases to each other before adding them to the gates; and it
  spells the logistic function as one over one plus the exponential of the negation. A product with arrays laid side by
  side is the sum of the pieces' products with the weight's row blocks (a sum over 256 or 384 indices split into runs
  of 128), the bias grouping is the associativity of addition, and the spelled-out logistic is the logistic function:
  so the reference's messages, gates, new cell, new state and output rows are the functions `edgeMsg`, `gates`, `cNew`,
  `hNew`, `outMlp` of the gathered rows, the row blocks of the weights and the other arguments.
-/
import proofs.«117058_j55439437856890_2_alg».proof.Proof.Gen.ReferenceIdeal.Read
import proofs.«117058_j55439437856890_2_alg».proof.Proof.Spec
import proofs.«117058_j55439437856890_2_alg».proof.Proof.Layout
import proofs.«117058_j55439437856890_2_alg».proof.Proof.LibConcat2
import proofs.«117058_j55439437856890_2_alg».proof.Proof.LibConcat3

set_option maxRecDepth 16384

noncomputable section

namespace Cert.ReferenceIdeal.Stages

open Cert.ReferenceIdeal Cert.ReferenceIdeal.Gen Cert.ReferenceIdeal.Read
open Idealize.ShloMosaic Idealize.ShloMosaic.ValueIdx
open Cert.Linear Cert.Gnn Cert.Lib

/-! ## The six products contract columns with rows -/

theorem c_e1 : Contracts (R := 320000) (K := 256) (N := 256) dot_S320000x256_S256x256_S320000x256_1_0_0_1_n_n where
  rank := rfl
  size := rfl
  lhs0 := fun i q => by
    unfold DotDims.lhsIdx
    rw [dif_neg (show ¬(0 : Fin (Mat 320000 256).rank) ∈ dot_S320000x256_S256x256_S320000x256_1_0_0_1_n_n.lhsBatch by decide),
      dif_pos (show (0 : Fin (Mat 320000 256).rank) ∈ dot_S320000x256_S256x256_S320000x256_1_0_0_1_n_n.lhsNonContracting by decide)]
    rfl
  lhs1 := fun i q => dot_S320000x256_S256x256_S320000x256_1_0_0_1_n_n.lhsIdx_val_of_single rfl i q
  rhs0 := fun i q => dot_S320000x256_S256x256_S320000x256_1_0_0_1_n_n.rhsIdx_val_of_single rfl i q
  rhs1 := fun i q => by
    unfold DotDims.rhsIdx
    rw [dif_neg (show ¬(1 : Fin (Mat 256 256).rank) ∈ dot_S320000x256_S256x256_S320000x256_1_0_0_1_n_n.rhsBatch by decide),
      dif_pos (show (1 : Fin (Mat 256 256).rank) ∈ dot_S320000x256_S256x256_S320000x256_1_0_0_1_n_n.rhsNonContracting by decide)]
    rfl

theorem c_e2 : Contracts (R := 320000) (K := 256) (N := 128) dot_S320000x256_S256x128_S320000x128_1_0_0_1_n_n where
  rank := rfl
  size := rfl
  lhs0 := fun i q => by
    unfold DotDims.lhsIdx
    rw [dif_neg (show ¬(0 : Fin (Mat 320000 256).rank) ∈ dot_S320000x256_S256x128_S320000x128_1_0_0_1_n_n.lhsBatch by decide),
      dif_pos (show (0 : Fin (Mat 320000 256).rank) ∈ dot_S320000x256_S256x128_S320000x128_1_0_0_1_n_n.lhsNonContracting by decide)]
    rfl
  lhs1 := fun i q => dot_S320000x256_S256x128_S320000x128_1_0_0_1_n_n.lhsIdx_val_of_single rfl i q
  rhs0 := fun i q => dot_S320000x256_S256x128_S320000x128_1_0_0_1_n_n.rhsIdx_val_of_single rfl i q
  rhs1 := fun i q => by
    unfold DotDims.rhsIdx
    rw [dif_neg (show ¬(1 : Fin (Mat 256 128).rank) ∈ dot_S320000x256_S256x128_S320000x128_1_0_0_1_n_n.rhsBatch by decide),
      dif_pos (show (1 : Fin (Mat 256 128).rank) ∈ dot_S320000x256_S256x128_S320000x128_1_0_0_1_n_n.rhsNonContracting by decide)]
    rfl

theorem c_g3 : Contracts (R := 10000) (K := 384) (N := 512) dot_S10000x384_S384x512_S10000x512_1_0_0_1_n_n where
  rank := rfl
  size := rfl
  lhs0 := fun i q => by
    unfold DotDims.lhsIdx
    rw [dif_neg (show ¬(0 : Fin (Mat 10000 384).rank) ∈ dot_S10000x384_S384x512_S10000x512_1_0_0_1_n_n.lhsBatch by decide),
      dif_pos (show (0 : Fin (Mat 10000 384).rank) ∈ dot_S10000x384_S384x512_S10000x512_1_0_0_1_n_n.lhsNonContracting by decide)]
    rfl
  lhs1 := fun i q => dot_S10000x384_S384x512_S10000x512_1_0_0_1_n_n.lhsIdx_val_of_single rfl i q
  rhs0 := fun i q => dot_S10000x384_S384x512_S10000x512_1_0_0_1_n_n.rhsIdx_val_of_single rfl i q
  rhs1 := fun i q => by
    unfold DotDims.rhsIdx
    rw [dif_neg (show ¬(1 : Fin (Mat 384 512).rank) ∈ dot_S10000x384_S384x512_S10000x512_1_0_0_1_n_n.rhsBatch by decide),
      dif_pos (show (1 : Fin (Mat 384 512).rank) ∈ dot_S10000x384_S384x512_S10000x512_1_0_0_1_n_n.rhsNonContracting by decide)]
    rfl

theorem c_g1 : Contracts (R := 10000) (K := 128) (N := 512) dot_S10000x128_S128x512_S10000x512_1_0_0_1_n_n where
  rank := rfl
  size := rfl
  lhs0 := fun i q => by
    unfold DotDims.lhsIdx
    rw [dif_neg (show ¬(0 : Fin (Mat 10000 128).rank) ∈ dot_S10000x128_S128x512_S10000x512_1_0_0_1_n_n.lhsBatch by decide),
      dif_pos (show (0 : Fin (Mat 10000 128).rank) ∈ dot_S10000x128_S128x512_S10000x512_1_0_0_1_n_n.lhsNonContracting by decide)]
    rfl
  lhs1 := fun i q => dot_S10000x128_S128x512_S10000x512_1_0_0_1_n_n.lhsIdx_val_of_single rfl i q
  rhs0 := fun i q => dot_S10000x128_S128x512_S10000x512_1_0_0_1_n_n.rhsIdx_val_of_single rfl i q
  rhs1 := fun i q => by
    unfold DotDims.rhsIdx
    rw [dif_neg (show ¬(1 : Fin (Mat 128 512).rank) ∈ dot_S10000x128_S128x512_S10000x512_1_0_0_1_n_n.rhsBatch by decide),
      dif_pos (show (1 : Fin (Mat 128 512).rank) ∈ dot_S10000x128_S128x512_S10000x512_1_0_0_1_n_n.rhsNonContracting by decide)]
    rfl

theorem c_o1 : Contracts (R := 10000) (K := 128) (N := 128) dot_S10000x128_S128x128_S10000x128_1_0_0_1_n_n where
  rank := rfl
  size := rfl
  lhs0 := fun i q => by
    unfold DotDims.lhsIdx
    rw [dif_neg (show ¬(0 : Fin (Mat 10000 128).rank) ∈ dot_S10000x128_S128x128_S10000x128_1_0_0_1_n_n.lhsBatch by decide),
      dif_pos (show (0 : Fin (Mat 10000 128).rank) ∈ dot_S10000x128_S128x128_S10000x128_1_0_0_1_n_n.lhsNonContracting by decide)]
    rfl
  lhs1 := fun i q => dot_S10000x128_S128x128_S10000x128_1_0_0_1_n_n.lhsIdx_val_of_single rfl i q
  rhs0 := fun i q => dot_S10000x128_S128x128_S10000x128_1_0_0_1_n_n.rhsIdx_val_of_single rfl i q
  rhs1 := fun i q => by
    unfold DotDims.rhsIdx
    rw [dif_neg (show ¬(1 : Fin (Mat 128 128).rank) ∈ dot_S10000x128_S128x128_S10000x128_1_0_0_1_n_n.rhsBatch by decide),
      dif_pos (show (1 : Fin (Mat 128 128).rank) ∈ dot_S10000x128_S128x128_S10000x128_1_0_0_1_n_n.rhsNonContracting by decide)]
    rfl

theorem c_o2 : Contracts (R := 10000) (K := 128) (N := 64) dot_S10000x128_S128x64_S10000x64_1_0_0_1_n_n where
  rank := rfl
  size := rfl
  lhs0 := fun i q => by
    unfold DotDims.lhsIdx
    rw [dif_neg (show ¬(0 : Fin (Mat 10000 128).rank) ∈ dot_S10000x128_S128x64_S10000x64_1_0_0_1_n_n.lhsBatch by decide),
      dif_pos (show (0 : Fin (Mat 10000 128).rank) ∈ dot_S10000x128_S128x64_S10000x64_1_0_0_1_n_n.lhsNonContracting by decide)]
    rfl
  lhs1 := fun i q => dot_S10000x128_S128x64_S10000x64_1_0_0_1_n_n.lhsIdx_val_of_single rfl i q
  rhs0 := fun i q => dot_S10000x128_S128x64_S10000x64_1_0_0_1_n_n.rhsIdx_val_of_single rfl i q
  rhs1 := fun i q => by
    unfold DotDims.rhsIdx
    rw [dif_neg (show ¬(1 : Fin (Mat 128 64).rank) ∈ dot_S10000x128_S128x64_S10000x64_1_0_0_1_n_n.rhsBatch by decide),
      dif_pos (show (1 : Fin (Mat 128 64).rank) ∈ dot_S10000x128_S128x64_S10000x64_1_0_0_1_n_n.rhsNonContracting by decide)]
    rfl

variable (x0 x1 : (⟨S10000x128, .f32⟩ : BufTy).Contents (Elt Ideal)) (x2 x3 : (⟨S1x10000x128, .f32⟩ : BufTy).Contents (Elt Ideal))
  (x4 x5 : (⟨S320000, .i32⟩ : BufTy).Contents (Elt Ideal)) (x6 : (⟨S256x256, .f32⟩ : BufTy).Contents (Elt Ideal)) (x7 : (⟨S256, .f32⟩ : BufTy).Contents (Elt Ideal))
  (x8 : (⟨S256x128, .f32⟩ : BufTy).Contents (Elt Ideal)) (x9 : (⟨S128, .f32⟩ : BufTy).Contents (Elt Ideal)) (x10 : (⟨S384x512, .f32⟩ : BufTy).Contents (Elt Ideal))
  (x11 : (⟨S128x512, .f32⟩ : BufTy).Contents (Elt Ideal)) (x12 x13 : (⟨S512, .f32⟩ : BufTy).Contents (Elt Ideal)) (x14 : (⟨S128x128, .f32⟩ : BufTy).Contents (Elt Ideal))
  (x15 : (⟨S128, .f32⟩ : BufTy).Contents (Elt Ideal)) (x16 : (⟨S128x64, .f32⟩ : BufTy).Contents (Elt Ideal)) (x17 : (⟨S64, .f32⟩ : BufTy).Contents (Elt Ideal))

/-! ## The messages -/

/-- The message function of the reference's gathered rows. -/
def msgR : S320000x128.Idx → EReal :=
  edgeMsg (E := 320000) (val_main_v6 (F := Ideal) x1 x4) (val_main_v13 (F := Ideal) x1 x5)
    (rowBlock 128 0 (by omega) x6) (rowBlock 128 128 (by omega) x6) x7 x8 x9

theorem hidden_eq :
    (fun p => max (matProd (R := 320000) (K := 256) (N := 256) (val_main_v14 (F := Ideal) x1 x4 x5) x6 p + x7 (ix1 (p 1))) z32)
      = Gnn.hidden (E := 320000) (val_main_v6 (F := Ideal) x1 x4) (val_main_v13 (F := Ideal) x1 x5)
          (rowBlock 128 0 (by omega) x6) (rowBlock 128 128 (by omega) x6) x7 := by
  funext p
  unfold Gnn.hidden
  rw [matProd_join2 (K := 128) (T := 256) rfl (val_main_v6 (F := Ideal) x1 x4) (val_main_v13 (F := Ideal) x1 x5)
    (val_main_v14 (F := Ideal) x1 x4 x5) x6
    (fun r k => by unfold val_main_v14; exact Concat2.cols_first _ _ _ _ r k rfl rfl)
    (fun r k => by unfold val_main_v14; exact Concat2.cols_second _ _ _ _ r k rfl rfl) p]

theorem v23_eq : val_main_v23 (F := Ideal) x1 x4 x5 x6 x7 x8 x9 = msgR x1 x4 x5 x6 x7 x8 x9 := by
  simp only [val_main_v23, val_main_v22, val_main_v21, val_main_v20, val_main_v19, val_main_call0_v0, val_main_call0_cst,
    val_main_v18, val_main_v17, val_main_v16, val_main_v15, Host.dotGeneral]
  rw [dotGeneral_eq c_e1, dotGeneral_eq c_e2, biasRowsHost, biasRowsHost]
  show (fun i => matProd (R := 320000) (K := 256) (N := 128)
      (fun p => max (matProd (R := 320000) (K := 256) (N := 256) (val_main_v14 (F := Ideal) x1 x4 x5) x6 p + x7 (ix1 (p 1))) z32) x8 i
        + x9 (ix1 (i 1))) = _
  rw [hidden_eq]
  rfl

/-! ## The gates -/

/-- The gates of the reference's arrays. -/
def gatesR : S10000x512.Idx → EReal :=
  gates (N := 10000) x1 x0 (val_main_v26 (F := Ideal) x1 x4 x5 x6 x7 x8 x9) (dropUnit x2)
    (rowBlock 128 0 (by omega) x10) (rowBlock 128 128 (by omega) x10) (rowBlock 128 256 (by omega) x10) x11 x12 x13

theorem v35_eq : val_main_v35 (F := Ideal) x0 x1 x2 x4 x5 x6 x7 x8 x9 x10 x11 x12 x13
    = gatesR x0 x1 x2 x4 x5 x6 x7 x8 x9 x10 x11 x12 x13 := by
  simp only [val_main_v35, val_main_v34, val_main_v33, val_main_v32, val_main_v31, val_main_v30, val_main_v29, val_main_v28,
    Host.dotGeneral]
  rw [dotGeneral_eq c_g3, dotGeneral_eq c_g1, biasRowsHost, shapeCast_dropUnit]
  funext p
  show (matProd (R := 10000) (K := 384) (N := 512) (val_main_v27 (F := Ideal) x0 x1 x4 x5 x6 x7 x8 x9) x10 p
      + matProd (R := 10000) (K := 128) (N := 512) (dropUnit x2) x11 p) + (x12 (ix1 (p 1)) + x13 (ix1 (p 1))) = _
  rw [matProd_join3 (K := 128) (T := 384) rfl x1 x0 (val_main_v26 (F := Ideal) x1 x4 x5 x6 x7 x8 x9)
    (val_main_v27 (F := Ideal) x0 x1 x4 x5 x6 x7 x8 x9) x10
    (fun r k => by unfold val_main_v27; exact Concat3.cols_first _ _ _ _ _ r k rfl rfl)
    (fun r k => by unfold val_main_v27; exact Concat3.cols_second _ _ _ _ _ r k rfl rfl)
    (fun r k => by unfold val_main_v27; exact Concat3.cols_third _ _ _ _ _ r k rfl rfl) p]
  exact (add_assoc _ _ _).symm

/-! ## The new cell, the new state, the output rows -/

theorem v56_eq : val_main_v56 (F := Ideal) x0 x1 x2 x3 x4 x5 x6 x7 x8 x9 x10 x11 x12 x13
    = cNew (gatesR x0 x1 x2 x4 x5 x6 x7 x8 x9 x10 x11 x12 x13) (dropUnit x3) := by
  simp only [val_main_v56, val_main_v55, val_main_v54, val_main_v53, val_main_v52, val_main_cst_6, val_main_v51, val_main_v50,
    val_main_cst_5, val_main_v49, val_main_v48, val_main_v47, val_main_v46, val_main_v45, val_main_v44, val_main_cst_4,
    val_main_v43, val_main_v42, val_main_cst_3, val_main_v41, val_main_v40, val_main_v38, val_main_v37, val_main_v36]
  rw [v35_eq, slice_cols 0 _ _ (by omega), slice_cols 128 _ _ (by omega), slice_cols 256 _ _ (by omega), shapeCast_dropUnit]
  funext i
  show Ideal.div (Ideal.ofBits .f32 0x3F800000#32) (Ideal.ofBits .f32 0x3F800000#32
        + Ideal.exp (-(gateAt 128 (by omega) (gatesR x0 x1 x2 x4 x5 x6 x7 x8 x9 x10 x11 x12 x13) i))) * dropUnit x3 i
      + Ideal.div (Ideal.ofBits .f32 0x3F800000#32) (Ideal.ofBits .f32 0x3F800000#32
        + Ideal.exp (-(gateAt 0 (by omega) (gatesR x0 x1 x2 x4 x5 x6 x7 x8 x9 x10 x11 x12 x13) i)))
        * Ideal.tanh (gateAt 256 (by omega) (gatesR x0 x1 x2 x4 x5 x6 x7 x8 x9 x10 x11 x12 x13) i) = _
  rw [logistic_words, logistic_words]
  rfl

theorem v64_eq : val_main_v64 (F := Ideal) x0 x1 x2 x3 x4 x5 x6 x7 x8 x9 x10 x11 x12 x13
    = hNew (gatesR x0 x1 x2 x4 x5 x6 x7 x8 x9 x10 x11 x12 x13) (dropUnit x3) := by
  simp only [val_main_v64, val_main_v63, val_main_v62, val_main_v61, val_main_cst_8, val_main_v60, val_main_v59, val_main_cst_7,
    val_main_v58, val_main_v57, val_main_v39]
  rw [v56_eq, v35_eq, slice_cols 384 _ _ (by omega)]
  funext i
  show Ideal.div (Ideal.ofBits .f32 0x3F800000#32) (Ideal.ofBits .f32 0x3F800000#32
        + Ideal.exp (-(gateAt 384 (by omega) (gatesR x0 x1 x2 x4 x5 x6 x7 x8 x9 x10 x11 x12 x13) i)))
      * Ideal.tanh (cNew (gatesR x0 x1 x2 x4 x5 x6 x7 x8 x9 x10 x11 x12 x13) (dropUnit x3) i) = _
  rw [logistic_words]
  rfl

theorem v73_eq : val_main_v73 (F := Ideal) x0 x1 x2 x3 x4 x5 x6 x7 x8 x9 x10 x11 x12 x13 x14 x15 x16 x17
    = outMlp (hNew (gatesR x0 x1 x2 x4 x5 x6 x7 x8 x9 x10 x11 x12 x13) (dropUnit x3)) x14 x15 x16 x17 := by
  simp only [val_main_v73, val_main_v72, val_main_v71, val_main_v70, val_main_v69, val_main_call1_v0, val_main_call1_cst,
    val_main_v68, val_main_v67, val_main_v66, val_main_v65, Host.dotGeneral]
  rw [v64_eq, dotGeneral_eq c_o1, dotGeneral_eq c_o2, biasRowsHost, biasRowsHost]
  rfl

/-- A `[10000, 128]` array with a unit axis put in front, as the reference spells it. -/
def addUnitR (x : S10000x128.Idx → EReal) : S1x10000x128.Idx → EReal :=
  broadcastInDim S1x10000x128 ![1, 2] bcast_S10000x128_S1x10000x128_1_2 x

theorem v74_eq : val_main_v74 (F := Ideal) x0 x1 x2 x3 x4 x5 x6 x7 x8 x9 x10 x11 x12 x13
    = addUnitR (hNew (gatesR x0 x1 x2 x4 x5 x6 x7 x8 x9 x10 x11 x12 x13) (dropUnit x3)) := by
  unfold val_main_v74
  rw [v64_eq]
  rfl

theorem v75_eq : val_main_v75 (F := Ideal) x0 x1 x2 x3 x4 x5 x6 x7 x8 x9 x10 x11 x12 x13
    = addUnitR (cNew (gatesR x0 x1 x2 x4 x5 x6 x7 x8 x9 x10 x11 x12 x13) (dropUnit x3)) := by
  unfold val_main_v75
  rw [v56_eq]
  rfl

end Cert.ReferenceIdeal.Stages

end
-- ==== Proof.Bridge.lean ====
/-
  The two programs compute the same functions of the arguments.

  The idealized kernel's results and the reference's results have been read as the functions `outMlp`, `hNew`, `cNew` of
  gates that are the function `gates` of the arguments, the summed messages, and row blocks of the weights; the messages
  are the function `edgeMsg` of the gathered rows. What is left to compare is what each program does itself on the host:
  the gather of the endpoint rows (the kernel gathers rows whose float format it changed first, which is the identity on
  the extended reals; both wrap negative node numbers the same way) and the summation of the messages per destination
  node (the same operation on the same start value and the same node numbers). These are the same terms, so the
  results are equal as soon as the messages are.
-/
import proofs.«117058_j55439437856890_2_alg».proof.Defs
import proofs.«117058_j55439437856890_2_alg».proof.Proof.KHost
import proofs.«117058_j55439437856890_2_alg».proof.Proof.RefStages

set_option maxRecDepth 16384

noncomputable section

namespace Cert.Proof.Bridge

open Idealize.ShloMosaic Idealize.ShloMosaic.TcCoe Idealize.SL.Sem Idealize.ShloMosaic.ValueIdx
open Cert.Linear Cert.Gnn
open Cert.KernelIdeal.Whole Cert.ReferenceIdeal.Stages Cert.ReferenceIdeal.Read

variable (m : (ℓ : Loc Cert.KernelIdeal.nD Cert.KernelIdeal.τ Cert.KernelIdeal.sig) → Buf (Elt Ideal) ℓ) (c : Dev Cert.KernelIdeal.nD)

/-- The messages: both programs gather the same rows. -/
theorem msg_eq : msg m c = msgR (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := rfl

/-- The summed messages: the same summation of equal messages. -/
theorem summed_eq : summed m c = val_main_v26 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  unfold summed val_main_v26
  rw [v23_eq, ← msg_eq m c]
  rfl

/-- The gates. -/
theorem gates_eq : gatesW m c = gatesR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  unfold gatesW gatesR
  rw [summed_eq m c]

theorem cell_eq : cellW m c = cNew (gatesR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (dropUnit (m ((c.tc : Thread Cert.KernelIdeal.nD Cert.KernelIdeal.τ).loc Cert.KernelIdeal.main_arg3))) := by
  unfold cellW
  rw [gates_eq m c]

theorem state_eq : stateW m c = hNew (gatesR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (dropUnit (m ((c.tc : Thread Cert.KernelIdeal.nD Cert.KernelIdeal.τ).loc Cert.KernelIdeal.main_arg3))) := by
  unfold stateW
  rw [gates_eq m c]

theorem out_eq : outW m c = outMlp (hNew (gatesR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (dropUnit (m ((c.tc : Thread Cert.KernelIdeal.nD Cert.KernelIdeal.τ).loc Cert.KernelIdeal.main_arg3)))) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
  unfold outW
  rw [state_eq m c]

/-- Putting the unit axis in front is spelled the same way by both programs. -/
theorem addUnit_eq (x : Cert.KernelIdeal.S10000x128.Idx → EReal) : addUnit x = addUnitR x := rfl

end Cert.Proof.Bridge

end
-- ==== Proof.lean ====
/-
  The certificate of one message-passing step on a graph: a kernel program against its reference.

  Both programs gather the state rows of every edge's two endpoints, pass them through a two-layer network whose
  hidden layer is clipped at zero, sum the resulting messages per destination node, form four gates per node from the
  node's state, input, summed messages and old state, update the cell and the state with the logistic function and the
  hyperbolic tangent, and run a two-layer output network on the new state. The kernel program does the edge network and
  the node update in two tiled kernels (40 blocks of 8000 edges; 10 blocks of 1000 nodes), multiplies each side-by-side
  operand separately against its row block of the weight and adds the products, and adds the two gate biases one after
  the other; the reference multiplies the arrays laid side by side against the whole weight and adds the two biases to
  each other first. On the extended reals a sum over stacked blocks is the sum of the blocks' sums and addition is
  associative, the logistic function is one over one plus the exponential of the negation, and a change of float
  format is the identity: the two programs compute the same three arrays, for all arguments, with no finiteness needed.

  The frames of the two kernel programs are the generated ones; the reference's frame is its generated run with the
  results dropped; the idealization rewrote nothing, so `preserves` is trivial.
-/
import proofs.«117058_j55439437856890_2_alg».proof.Defs
import proofs.«117058_j55439437856890_2_alg».proof.Proof.Gen.Kernel
import proofs.«117058_j55439437856890_2_alg».proof.Proof.Gen.Kernel.Skeleton
import proofs.«117058_j55439437856890_2_alg».proof.Proof.Gen.Kernel.Launch
import proofs.«117058_j55439437856890_2_alg».proof.Proof.Gen.Kernel.Points
import proofs.«117058_j55439437856890_2_alg».proof.Proof.Gen.Kernel.Frame
import proofs.«117058_j55439437856890_2_alg».proof.Proof.Gen.KernelIdeal
import proofs.«117058_j55439437856890_2_alg».proof.Proof.Gen.KernelIdeal.Skeleton
import proofs.«117058_j55439437856890_2_alg».proof.Proof.Gen.KernelIdeal.Launch
import proofs.«117058_j55439437856890_2_alg».proof.Proof.Gen.KernelIdeal.Points
import proofs.«117058_j55439437856890_2_alg».proof.Proof.Gen.KernelIdeal.Frame
import proofs.«117058_j55439437856890_2_alg».proof.Proof.Gen.ReferenceIdeal
import proofs.«117058_j55439437856890_2_alg».proof.Proof.Gen.ReferenceIdeal.Run
import proofs.«117058_j55439437856890_2_alg».proof.Proof.Gen.ReferenceIdeal.Read
import proofs.«117058_j55439437856890_2_alg».proof.Proof.Gen.Pre_finite_inputs
import proofs.«117058_j55439437856890_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Whole Cert.ReferenceIdeal.Stages

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2.2) (Cert.ReferenceIdeal.Value.run (F := Ideal) m ρ)

/-- From memories agreeing on the arguments both programs end with the output rows, the new state and the new cell
    of all nodes: the kernel's run read through its two grids, the reference's run read stage by stage, and the two
    readings the same functions. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => outW m c, fun c => addUnit (stateW m c), fun c => addUnit (cellW m c), ?_, ?_⟩
  · refine (θ_run Cert.KernelIdeal.defs _ _).mono (fun r h c => ?_) (Cert.KernelIdeal.RunValue.run_values (F := Ideal) m ρ)
    obtain ⟨h0, h1, h2, hrest⟩ := h c
    exact ⟨h0.trans (W5_out m ρ c), h1.trans (W5_state m ρ c), h2.trans (W5_cell m ρ c), hrest⟩
  · refine (θ_run Cert.ReferenceIdeal.defs _ _).mono (fun r h c => ?_) (Cert.ReferenceIdeal.Value.run (F := Ideal) m' ρ')
    obtain ⟨h0, h1, h2, hrest⟩ := h c
    obtain ⟨a0, a1, a2, a3, a4, a5, a6, a7, a8, a9, a10, a11, a12, a13, a14, a15, a16, a17⟩ := hagree c
    refine ⟨h0.trans ?_, h1.trans ?_, h2.trans ?_, hrest⟩
    · rw [Cert.ReferenceIdeal.Read.val_main_v73_eq m' c]
      simp only [a0, a1, a2, a3, a4, a5, a6, a7, a8, a9, a10, a11, a12, a13, a14, a15, a16, a17]
      rw [v73_eq]
      exact (Bridge.out_eq m c).symm
    · rw [Cert.ReferenceIdeal.Read.val_main_v74_eq m' c]
      simp only [a0, a1, a2, a3, a4, a5, a6, a7, a8, a9, a10, a11, a12, a13, a14, a15, a16, a17]
      rw [v74_eq, Bridge.state_eq m c]
      rfl
    · rw [Cert.ReferenceIdeal.Read.val_main_v75_eq m' c]
      simp only [a0, a1, a2, a3, a4, a5, a6, a7, a8, a9, a10, a11, a12, a13, a14, a15, a16, a17]
      rw [v75_eq, Bridge.cell_eq m c]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
